-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S16 .f32) (main_arg6 : FVec F S16x1 .f32) (main_arg7 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg6
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x1 .f32) (main_arg1 : IVec S2x3200000 32) (main_arg2 : FVec F S1x16 .f32) (main_arg3 : FVec F S16 .f32) (main_arg4 : FVec F S16x16 .f32) (main_arg5 : FVec F S16 .f32) (main_arg6 : FVec F S16x1 .f32) (main_arg7 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x16 .f32 := Host.absf main_arg2
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_v13 main_v16
-- ==== Kernel.lean ====
abbrev S100000x1 : Shape := ⟨2, ![100000, 1]⟩
abbrev S2x3200000 : Shape := ⟨2, ![2, 3200000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x1 : Shape := ⟨2, ![10000, 1]⟩
abbrev S10000x16 : Shape := ⟨2, ![10000, 16]⟩
abbrev S3300000x16 : Shape := ⟨2, ![3300000, 16]⟩
abbrev S1x1 : Shape := ⟨2, ![1, 1]⟩

abbrev nBuf : Space → Nat
  | .hbm => 85
  | .vmem => 18
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S1x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S3300000x1, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x16, .f32⟩
  | .hbm, ⟨76, _⟩ => ⟨S3300000x16, .f32⟩
  | .hbm, ⟨77, _⟩ => ⟨S3300000x16, .f32⟩
  | .hbm, ⟨78, _⟩ => ⟨S_, .f32⟩
  | .hbm, ⟨79, _⟩ => ⟨S100000x16, .f32⟩
  | .hbm, ⟨80, _⟩ => ⟨S3300000x1, .i32⟩
  | .hbm, ⟨81, _⟩ => ⟨S100000x16, .f32⟩
  | .hbm, ⟨82, _⟩ => ⟨S1x16, .f32⟩
  | .hbm, ⟨83, _⟩ => ⟨S1x1, .f32⟩
  | .hbm, ⟨84, _⟩ => ⟨S100000x1, .f32⟩
  | .local _ .vmem, ⟨0, _⟩ => ⟨S10000x1, .f32⟩
  | .local _ .vmem, ⟨1, _⟩ => ⟨S10000x1, .f32⟩
  | .local _ .vmem, ⟨2, _⟩ => ⟨S1x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S16x1, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x1_S10000x1_0_0 : ∀ a, (![0, 0] : Fin 2 → Nat) a + S10000x1.size a ≤ S10000x1.size a
  h_S10000x1 : 0 < S10000x1.numel
  inb_S1x16_S1x16_0_0 : ∀ a, (![0, 0] : Fin 2 → Nat) a + S1x16.size a ≤ S1x16.size a
  h_S1x16 : 0 < S1x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  shapeCasts_S1_S1x1 : S1.ShapeCasts S1x1
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x1_S1x16_S10000x16_1_0_0_1_n_n_wf : DotDims.WF S10000x1 S1x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x16_S10000x16_1_0_0_1_n_n_wf : DotDims.WF S10000x16 S16x16 S10000x16 [1] [0] [0] [1] [] []
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x1.size a ≤ S16x1.size a
  hwx2_2 : ∀ i : grid2.Coords, EltTy.bits .f32 = 32 ∨ (Rect.block (s := S16x1) S16x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S100000x1.size a
  hwx2_4 : ∀ i : grid2.Coords, EltTy.bits .f32 = 32 ∨ (Rect.block (s := S100000x1) S10000x1.size (cc2_transform_4 i) (hinb2_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x1_S1x16_S10000x16_1_0_0_1_n_n : DotDims S10000x1 S1x16 S10000x16 where
  lhsContracting := [1]
  rhsContracting := [0]
  lhsNonContracting := [0]
  rhsNonContracting := [1]
  lhsBatch := []
  rhsBatch := []
  wf := dot_S10000x1_S1x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S16x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S10000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x1 : Shape := ⟨2, ![100000, 1]⟩
abbrev S2x3200000 : Shape := ⟨2, ![2, 3200000]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S1x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x16, .f32⟩
  | .hbm, ⟨58, _⟩ => ⟨S3300000x1, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x16, .f32⟩
  | .hbm, ⟨68, _⟩ => ⟨S_, .f32⟩
  | .hbm, ⟨69, _⟩ => ⟨S100000x16, .f32⟩
  | .hbm, ⟨70, _⟩ => ⟨S100000x16, .f32⟩
  | .hbm, ⟨71, _⟩ => ⟨S100000x16, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x16, .f32⟩
  | .hbm, ⟨81, _⟩ => ⟨S3300000x1, .f32⟩
  | .hbm, ⟨82, _⟩ => ⟨S3300000x16, .f32⟩
  | .hbm, ⟨83, _⟩ => ⟨S3300000x16, .f32⟩
  | .hbm, ⟨84, _⟩ => ⟨S_, .f32⟩
  | .hbm, ⟨85, _⟩ => ⟨S100000x16, .f32⟩
  | .hbm, ⟨86, _⟩ => ⟨S3300000x1, .i32⟩
  | .hbm, ⟨87, _⟩ => ⟨S100000x16, .f32⟩
  | .hbm, ⟨88, _⟩ => ⟨S1x16, .f32⟩
  | .hbm, ⟨89, _⟩ => ⟨S100000x16, .f32⟩
  | .hbm, ⟨90, _⟩ => ⟨S100000x16, .f32⟩
  | .hbm, ⟨91, _⟩ => ⟨S_, .f32⟩
  | .hbm, ⟨92, _⟩ => ⟨S100000x16, .f32⟩
  | .hbm, ⟨93, _⟩ => ⟨S100000x16, .f32⟩
  | .hbm, ⟨94, _⟩ => ⟨S100000x1, .f32⟩
  | .hbm, ⟨95, _⟩ => ⟨S1x1, .f32⟩
  | .hbm, ⟨96, _⟩ => ⟨S100000x1, .f32⟩
  | .hbm, ⟨97, _⟩ => ⟨S100000x1, .f32⟩
  | .hbm, ⟨98, _⟩ => ⟨S100000x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x1_S1x16_S100000x16_1_0_0_1_n_n_wf : DotDims.WF S100000x1 S1x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  dot_S100000x16_S16x1_S100000x1_1_0_0_1_n_n_wf : DotDims.WF S100000x16 S16x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.KernelRun.lean ====
/-
  The idealized kernel's run, with the result array NAMED.

  @main is three tiled regions among stretches of host operations. The generated frame walks the
  buffer contents from one boundary to the next (`Gen.W0` … `Gen.W8`) and keeps, at the end, only that
  the arguments are unchanged. The same walk also knows the result: after the last region every
  unscoped buffer holds `Gen.W8`'s contents, and the result array `main_v60` is one of them. This
  module states that run once more with the result array read at `Gen.W8`, so that the value proof
  can unfold `Gen.W8` boundary by boundary.
-/
import proofs.«170745_j6098853560889_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last
    boundary's contents `Gen.W8` and the eight argument arrays as launched. -/
theorem run : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Named

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.Layers.lean ====
/-
  The three dense layers of the network, entry by entry, over the extended reals.

  The network is a two-layer graph convolution followed by a linear head:

      H₀ = x · W₁                       (one input feature to sixteen channels)
      H₁ = relu (P H₀ + b₁) · W₂        (sixteen to sixteen)
      y  = tanh (relu (P H₁ + b₂) · W_f + b_f)

  where `P` sends a node-feature array to its degree-normalised sum over incoming edges (a gather, a
  scaling and a scatter-add: the same host operations in both programs). This module states the three
  DENSE pieces as functions of arrays with any number `M` of rows, and the one structural fact the tiled
  program rests on: each of them computes row `n` of its result from row `n` of its node-feature operand
  alone, so it commutes with taking a block of rows.
-/
import Idealize.ShloMosaic.PureOps.Ideal
import Idealize.ShloMosaic.Lib.ValueIdx

noncomputable section

namespace Cert.Gcn

open Idealize.ShloMosaic Idealize.ShloMosaic.ValueIdx

/-- A rank-2 array of extended reals with `M` rows and `N` columns. -/
abbrev Mat (M N : Nat) : Type := (⟨2, ![M, N]⟩ : Shape).Idx → EReal

/-- The row of a rank-2 index, as a number below the row count. -/
abbrev row {M N : Nat} (i : (⟨2, ![M, N]⟩ : Shape).Idx) : Fin M := ⟨(i 0).val, idx2_lt0 i⟩
/-- The column of a rank-2 index, as a number below the column count. -/
abbrev col {M N : Nat} (i : (⟨2, ![M, N]⟩ : Shape).Idx) : Fin N := ⟨(i 1).val, idx2_lt1 i⟩

/-- `X · W` at entry `i`: the sum over the inner index of row `i` of `X` against column `i` of `W`. -/
def dense {M K N : Nat} (X : Mat M K) (W : Mat K N) : Mat M N :=
  fun i => ∑ k : Fin K, X (ix2 (row i) k) * W (ix2 k (col i))

/-- `relu (A + b)`: the bias `b` added to every row of `A`, then the positive part. -/
def act {M K : Nat} (A : Mat M K) (b : Fin K → EReal) : Mat M K :=
  fun i => max (A i + b (col i)) 0

/-- The first layer's dense part: `x · W₁`. -/
def lin0 {M : Nat} (x : Mat M 1) (W : Mat 1 16) : Mat M 16 := dense x W

/-- The second layer's dense part: `relu (A + b) · W`. -/
def lin1 {M : Nat} (A : Mat M 16) (b : Fin 16 → EReal) (W : Mat 16 16) : Mat M 16 := dense (act A b) W

/-- The head: `tanh (relu (A + b) · W + c)`. -/
def head {M : Nat} (A : Mat M 16) (b : Fin 16 → EReal) (W : Mat 16 1) (c : EReal) : Mat M 1 :=
  fun i => Ideal.tanh (dense (act A b) W i + c)

/-! ## Row by row -/

/-- The rows of `X` picked by `ρ`: row `n` of the result is row `ρ n` of `X`. A block of consecutive rows is
    `ρ n = offset + n`. -/
def rows {Mb M N : Nat} (ρ : Fin Mb → Fin M) (X : Mat M N) : Mat Mb N := fun j => X (ix2 (ρ (row j)) (col j))

/-- Block `t` of ten blocks of 10000 consecutive rows: row `p` of the block is row `10000·t + p` of the array. -/
def blockRows (t : Nat) (ht : t < 10) : Fin 10000 → Fin 100000 := fun p => ⟨t * 10000 + p.val, by have := p.isLt; omega⟩

theorem dense_rows {Mb M K N : Nat} (ρ : Fin Mb → Fin M) (X : Mat M K) (W : Mat K N) :
    dense (rows ρ X) W = rows ρ (dense X W) := rfl

theorem act_rows {Mb M K : Nat} (ρ : Fin Mb → Fin M) (A : Mat M K) (b : Fin K → EReal) :
    act (rows ρ A) b = rows ρ (act A b) := rfl

theorem lin0_rows {Mb M : Nat} (ρ : Fin Mb → Fin M) (x : Mat M 1) (W : Mat 1 16) :
    lin0 (rows ρ x) W = rows ρ (lin0 x W) := rfl

theorem lin1_rows {Mb M : Nat} (ρ : Fin Mb → Fin M) (A : Mat M 16) (b : Fin 16 → EReal) (W : Mat 16 16) :
    lin1 (rows ρ A) b W = rows ρ (lin1 A b W) := rfl

theorem head_rows {Mb M : Nat} (ρ : Fin Mb → Fin M) (A : Mat M 16) (b : Fin 16 → EReal) (W : Mat 16 1) (c : EReal) :
    head (rows ρ A) b W c = rows ρ (head A b W c) := rfl

end Cert.Gcn

end
-- ==== Proof.KernelBodies.lean ====
/-
  What each tile computes: the three kernel bodies as the dense layers, at block size.

  Each body loads its whole blocks, computes one value and stores it whole. That value — the body's
  payload, a pure function of the loaded blocks — is a `tpu.matmul` into a zero accumulator of
  (for the second and third bodies) `max (A + b, 0)`, the bias row `b` broadcast down the block's
  10000 rows, and for the third body `tanh` of that plus the broadcast scalar. Read entry by entry at
  the extended reals these are `lin0`, `lin1` and `head` of Layers.lean on a 10000-row array: the
  matmul is the sum over the inner index (LibPlainDot.lean), a same-shape cast is the identity, and
  the broadcasts read the bias at the entry's column.
-/
import proofs.«170745_j6098853560889_1_alg».proof.Proof.Gen.KernelIdeal.Skeleton
import proofs.«170745_j6098853560889_1_alg».proof.Proof.LibPlainDot
import proofs.«170745_j6098853560889_1_alg».proof.Proof.Layers
import Idealize.ShloMosaic.Lib.Pipeline.Value
import Idealize.ShloMosaic.PureOps.Ideal.Laws

noncomputable section

namespace Cert.KernelIdeal.Bodies

open Cert.KernelIdeal Cert.KernelIdeal.Gen Cert.Gcn Cert.PlainDot
open Idealize.ShloMosaic Idealize.ShloMosaic.ValueIdx

theorem plain0 : IsPlain dot_S10000x1_S1x16_S10000x16_1_0_0_1_n_n := ⟨rfl, rfl, rfl, rfl, rfl, rfl⟩
theorem plain1 : IsPlain dot_S10000x16_S16x16_S10000x16_1_0_0_1_n_n := ⟨rfl, rfl, rfl, rfl, rfl, rfl⟩
theorem plain2 : IsPlain dot_S10000x16_S16x1_S10000x1_1_0_0_1_n_n := ⟨rfl, rfl, rfl, rfl, rfl, rfl⟩

/-- Every body reads and writes its buffers whole: the rectangle at offsets `(0, 0)`. -/
theorem zeros2 : (![0, 0] : Fin 2 → Nat) = fun _ => 0 := funext fun a => by fin_cases a <;> rfl

/-- The bias row of a `1 × 16` block, as a function of the column. -/
abbrev biasRow (b : Vec Ideal S1x16 .f32) : Fin 16 → EReal := fun k => b (ix2 0 k)

/-- The first body's payload is `x · W` on the block. -/
theorem pay0_eq (x0 : Vec Ideal S10000x1 .f32) (x1 : Vec Ideal S1x16 .f32) : k0_pay1 x0 x1 = lin0 x0 x1 := by
  funext j
  obtain ⟨p, q, rfl⟩ : ∃ (p : Fin 10000) (q : Fin 16), j = ix2 p q := ⟨j 0, j 1, eq_ix2 j⟩
  unfold k0_pay1
  exact matmul_zero_apply _ plain0 none x0 x1 p q

/-- `max (A + b, 0)` as the bodies spell it — the block cast to its own shape, the bias row cast to its own
    shape and broadcast down the rows, the zero a broadcast scalar — read at entry `(p, k)`. -/
theorem relu_bias_apply (v0 : Vec Ideal S10000x16 .f32) (v2 : Vec Ideal S1x16 .f32) (p : Fin 10000) (k : Fin 16) :
    maximumf (addf (shapeCast S10000x16 v0 shapeCasts_S10000x16_S10000x16)
        (broadcastTo S10000x16 (shapeCast S1x16 v2 shapeCasts_S1x16_S1x16) broadcasts_S1x16_S10000x16))
      (broadcast S10000x16 (Scalar.ofBits (F := Ideal) .f32 0x00000000#32)) (ix2 p k)
      = act v0 (biasRow v2) (ix2 p k) := by
  rw [shapeCast_self, shapeCast_self]
  show max (v0 (ix2 p k) + broadcastTo S10000x16 v2 broadcasts_S1x16_S10000x16 (ix2 p k)) (Ideal.ofBits .f32 0x00000000#32)
    = max (v0 (ix2 p k) + v2 (ix2 0 k)) 0
  rw [broadcastTo_apply v2 broadcasts_S1x16_S10000x16 (ix2 p k) (ix2 0 k) (fun a => by
    match a with
    | ⟨0, _⟩ => rfl
    | ⟨1, _⟩ => rfl), Ideal.ofBits_zero_f32]

/-- The second body's payload is `relu (A + b) · W` on the block. -/
theorem pay1_eq (v0 : Vec Ideal S10000x16 .f32) (v2 : Vec Ideal S1x16 .f32) (v8 : Vec Ideal S16x16 .f32) :
    k1_pay1 v0 v2 v8 = lin1 v0 (biasRow v2) v8 := by
  funext j
  obtain ⟨p, q, rfl⟩ : ∃ (p : Fin 10000) (q : Fin 16), j = ix2 p q := ⟨j 0, j 1, eq_ix2 j⟩
  unfold k1_pay1
  refine (matmul_zero_apply _ plain1 none _ v8 p q).trans ?_
  exact Finset.sum_congr rfl fun k _ => congrArg (· * v8 (ix2 k q)) (relu_bias_apply v0 v2 p k)

/-- The third body's payload is `tanh (relu (A + b) · W + c)` on the block, `c` the one entry of the `1 × 1` block. -/
theorem pay2_eq (v0 : Vec Ideal S10000x16 .f32) (v2 : Vec Ideal S1x16 .f32) (v8 : Vec Ideal S16x1 .f32) (v10 : Vec Ideal S1x1 .f32) :
    k2_pay1 v0 v2 v8 v10 = head v0 (biasRow v2) v8 (v10 (ix2 0 0)) := by
  funext j
  obtain ⟨p, q, rfl⟩ : ∃ (p : Fin 10000) (q : Fin 1), j = ix2 p q := ⟨j 0, j 1, eq_ix2 j⟩
  unfold k2_pay1
  rw [shapeCast_self (s := S1x1)]
  show Ideal.tanh (matmul (F := Ideal) dot_S10000x16_S16x1_S10000x1_1_0_0_1_n_n none _ v8 (constant (F := Ideal) S10000x1 .f32 0x00000000#32) (ix2 p q)
      + broadcastTo S10000x1 v10 broadcasts_S1x1_S10000x1 (ix2 p q)) = Ideal.tanh (_ + v10 (ix2 0 0))
  rw [broadcastTo_apply v10 broadcasts_S1x1_S10000x1 (ix2 p q) (ix2 0 0) (fun a => by
    match a with
    | ⟨0, _⟩ => rfl
    | ⟨1, _⟩ => rfl)]
  refine congrArg (fun s => Ideal.tanh (s + v10 (ix2 0 0))) ?_
  refine (matmul_zero_apply _ plain2 none _ v8 p q).trans ?_
  exact Finset.sum_congr rfl fun k _ => congrArg (· * v8 (ix2 k q)) (relu_bias_apply v0 v2 p k)

end Cert.KernelIdeal.Bodies

end
-- ==== Proof.Tile0.lean ====
/-
  The first region as one function of the arrays it finds.

  Point `t` of the ten grid points reads rows `10000·t … 10000·t + 9999` of the one-column feature array
  and the whole `1 × 16` weight row, and writes the same rows of the result. The body's value on a block is
  `x · W` of that block (KernelBodies.lean), a function that computes each row from the same row of `x`
  alone (Layers.lean); the ten blocks tile the 100000 rows. So after the region the result array is `x · W`
  of the arrays the region was entered with.
-/
import proofs.«170745_j6098853560889_1_alg».proof.Proof.Gen.KernelIdeal.Frame
import proofs.«170745_j6098853560889_1_alg».proof.Proof.KernelBodies
import Idealize.ShloMosaic.Lib.Pipeline.Value

set_option maxRecDepth 16384

noncomputable section

namespace Cert.KernelIdeal.Tiles

open Cert.KernelIdeal Cert.KernelIdeal.Gen Cert.KernelIdeal.Bodies Cert.Gcn
open Idealize.ShloMosaic Idealize.ShloMosaic.TcCoe Idealize.ShloMosaic.ValueIdx Idealize.SL.Sem
open Idealize.ShloMosaic.Pipeline (Dat)

-- the TensorCore's buffer contents when the region is entered, at the ideal values
variable (V : (c : Dev nD) → (b : Ref sig .tc) → Buf (Elt Ideal) ((c : Thread nD τ).loc b))

/-- The printed index maps over the ten grid points: the feature window and the result window sit at block
    row `t`, block column `0`; the weights are their whole array at every point. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `x · W` of the arrays as the region finds them. -/
theorem flushed0 (c : Dev nD) (t : Fin cfg0.N) :
    (dat0 V c).flushed 2 t = ((cfg0.win 2).blk t).view.read (Elt Ideal) (lin0 (V c main_arg0) (V c main_arg2)) := by
  show (cfg0.win 2).cut (grid0.coords t) ((dat0 V c).after 2 t) = _
  rw [after0_2]
  unfold out0_2
  rw [View.canon_unit_zero zeros2]
  simp only [View.ld_unit_zero (S := S10000x1) zeros2, View.ld_unit_zero (S := S1x16) zeros2]
  rw [pay0_eq]
  obtain ⟨e00, e01, e10, e11, e20, e21⟩ := idx0 t
  funext j
  show lin0 (iblk0 V c 0 t) (iblk0 V c 1 t) j = lin0 (V c main_arg0) (V c main_arg2) (((cfg0.win 2).blk t).view.emb j)
  have ht : t.val < 10 := lt_of_lt_of_eq t.isLt N_0
  -- the feature block is rows 10000·t … of the feature array
  have hA : iblk0 V c 0 t = rows (blockRows t.val ht) (V c main_arg0) := by
    funext y
    show V c main_arg0 (((cfg0.win 0).blk t).view.emb y) = V c main_arg0 (ix2 (blockRows t.val ht (row y)) (col y))
    refine congrArg (V c main_arg0) (funext fun a => Fin.ext ?_)
    match a with
    | ⟨0, _⟩ => show win0_0.index t (0 : Fin 2) * 10000 + 1 * (y 0).val = t.val * 10000 + (y 0).val; omega
    | ⟨1, _⟩ => show win0_0.index t (1 : Fin 2) * 1 + 1 * (y 1).val = (y 1).val; omega
  -- the weight block is the whole weight row
  have hB : iblk0 V c 1 t = V c main_arg2 := by
    funext y
    show V c main_arg2 (((cfg0.win 1).blk t).view.emb y) = V c main_arg2 y
    refine congrArg (V c main_arg2) (funext fun a => Fin.ext ?_)
    match a with
    | ⟨0, _⟩ => show win0_1.index t (0 : Fin 2) * 1 + 1 * (y 0).val = (y 0).val; omega
    | ⟨1, _⟩ => show win0_1.index t (1 : Fin 2) * 16 + 1 * (y 1).val = (y 1).val; omega
  -- an entry of the result block sits in the array at row 10000·t + its row, at its own column
  have hE : ((cfg0.win 2).blk t).view.emb j = ix2 (blockRows t.val ht (row j)) (col j) := by
    funext a
    refine Fin.ext ?_
    match a with
    | ⟨0, _⟩ => show win0_2.index t (0 : Fin 2) * 10000 + 1 * (j 0).val = t.val * 10000 + (j 0).val; omega
    | ⟨1, _⟩ => show win0_2.index t (1 : Fin 2) * 16 + 1 * (j 1).val = (j 1).val; omega
  rw [hA, hB, lin0_rows, hE]
  rfl

/-- An array index lies in point `t`'s result block iff each coordinate is in the block's range on its axis. -/
theorem mem_blk0 (t : Fin cfg0.N) (i : S100000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v31).slice (win0_2.rect t)).set ↔ _
  rw [View.set_slice_whole, Rect.mem_set_unit]
  exact Iff.rfl

/-- The ten result blocks cover the array: row `r` is in block `r / 10000`. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 10 := N_0
  have hlt : (i 0).val / 10000 < cfg0.N := by rw [hN]; omega
  obtain ⟨-, -, -, -, e20, e21⟩ := idx0 ⟨(i 0).val / 10000, hlt⟩
  refine ⟨⟨(i 0).val / 10000, hlt⟩, flush0_2 _, ?_⟩
  rw [mem_blk0]
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    rw [e20]
    show (i 0).val / 10000 * 10000 ≤ (i 0).val ∧ (i 0).val < (i 0).val / 10000 * 10000 + 10000
    omega
  | ⟨1, _⟩ =>
    show win0_2.index ⟨(i 0).val / 10000, hlt⟩ (1 : Fin 2) * 16 ≤ (i 1).val
      ∧ (i 1).val < win0_2.index ⟨(i 0).val / 10000, hlt⟩ (1 : Fin 2) * 16 + 16
    rw [e21]
    omega

/-- After the region the result array is `x · W` of the arrays the region was entered with. -/
theorem final0 (c : Dev nD) : (dat0 V c).arrAt 2 cfg0.N = lin0 (V c main_arg0) (V c main_arg2) :=
  (dat0 V c).arrAt_eq_of_cover 2 _ (fun t _ => flushed0 V c t) cover0

end Cert.KernelIdeal.Tiles

end
-- ==== Proof.Tile1.lean ====
/-
  The second region as one function of the arrays it finds.

  The region runs its body at ten grid points. Point `t` reads rows `10000·t … 10000·t + 9999` of the
  aggregated features, the whole bias row and the whole weight matrix, and writes the same rows of the
  result. The body's value on a block is `relu (A + b) · W` of that block (KernelBodies.lean), and that
  function computes each row from the same row of `A` alone (Layers.lean), so what point `t` writes
  back is rows `10000·t …` of `relu (A + b) · W` of the WHOLE array. The ten blocks tile the 100000 rows
  (row `r` lies in block `r / 10000`), hence after the region the result array is that function of the
  arrays the region was entered with.
-/
import proofs.«170745_j6098853560889_1_alg».proof.Proof.Gen.KernelIdeal.Frame
import proofs.«170745_j6098853560889_1_alg».proof.Proof.KernelBodies
import Idealize.ShloMosaic.Lib.Pipeline.Value

set_option maxRecDepth 16384

noncomputable section

namespace Cert.KernelIdeal.Tiles

open Cert.KernelIdeal Cert.KernelIdeal.Gen Cert.KernelIdeal.Bodies Cert.Gcn
open Idealize.ShloMosaic Idealize.ShloMosaic.TcCoe Idealize.ShloMosaic.ValueIdx Idealize.SL.Sem
open Idealize.ShloMosaic.Pipeline (Dat)

-- the TensorCore's buffer contents when the region is entered, at the ideal values
variable (V : (c : Dev nD) → (b : Ref sig .tc) → Buf (Elt Ideal) ((c : Thread nD τ).loc b))

/-- The printed index maps over the ten grid points: the feature window and the result window sit at block
    row `t`, block column `0`; the bias and the weights are their whole arrays at every point. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `relu (A + b) · W` of the arrays as the region finds them. -/
theorem flushed1 (c : Dev nD) (t : Fin cfg1.N) :
    (dat1 V c).flushed 3 t = ((cfg1.win 3).blk t).view.read (Elt Ideal)
      (lin1 (V c main_v43) (biasRow (V c main_v44)) (V c main_arg4)) := by
  show (cfg1.win 3).cut (grid1.coords t) ((dat1 V c).after 3 t) = _
  rw [after1_3]
  unfold out1_3
  rw [View.canon_unit_zero zeros2]
  simp only [View.ld_unit_zero (S := S10000x16) zeros2, View.ld_unit_zero (S := S1x16) zeros2, View.ld_unit_zero (S := S16x16) zeros2]
  rw [pay1_eq]
  obtain ⟨e00, e01, e10, e11, e20, e21, e30, e31⟩ := idx1 t
  funext j
  show lin1 (iblk1 V c 0 t) (biasRow (iblk1 V c 1 t)) (iblk1 V c 2 t) j
    = lin1 (V c main_v43) (biasRow (V c main_v44)) (V c main_arg4) (((cfg1.win 3).blk t).view.emb j)
  have ht : t.val < 10 := lt_of_lt_of_eq t.isLt N_1
  -- the feature block is rows 10000·t … of the feature array
  have hA : iblk1 V c 0 t = rows (blockRows t.val ht) (V c main_v43) := by
    funext y
    show V c main_v43 (((cfg1.win 0).blk t).view.emb y) = V c main_v43 (ix2 (blockRows t.val ht (row y)) (col y))
    refine congrArg (V c main_v43) (funext fun a => Fin.ext ?_)
    match a with
    | ⟨0, _⟩ => show win1_0.index t (0 : Fin 2) * 10000 + 1 * (y 0).val = t.val * 10000 + (y 0).val; omega
    | ⟨1, _⟩ => show win1_0.index t (1 : Fin 2) * 16 + 1 * (y 1).val = (y 1).val; omega
  -- the bias block and the weight block are their whole arrays
  have hB : iblk1 V c 1 t = V c main_v44 := by
    funext y
    show V c main_v44 (((cfg1.win 1).blk t).view.emb y) = V c main_v44 y
    refine congrArg (V c main_v44) (funext fun a => Fin.ext ?_)
    match a with
    | ⟨0, _⟩ => show win1_1.index t (0 : Fin 2) * 1 + 1 * (y 0).val = (y 0).val; omega
    | ⟨1, _⟩ => show win1_1.index t (1 : Fin 2) * 16 + 1 * (y 1).val = (y 1).val; omega
  have hC : iblk1 V c 2 t = V c main_arg4 := by
    funext y
    show V c main_arg4 (((cfg1.win 2).blk t).view.emb y) = V c main_arg4 y
    refine congrArg (V c main_arg4) (funext fun a => Fin.ext ?_)
    match a with
    | ⟨0, _⟩ => show win1_2.index t (0 : Fin 2) * 16 + 1 * (y 0).val = (y 0).val; omega
    | ⟨1, _⟩ => show win1_2.index t (1 : Fin 2) * 16 + 1 * (y 1).val = (y 1).val; omega
  -- an entry of the result block sits in the array at row 10000·t + its row, at its own column
  have hE : ((cfg1.win 3).blk t).view.emb j = ix2 (blockRows t.val ht (row j)) (col j) := by
    funext a
    refine Fin.ext ?_
    match a with
    | ⟨0, _⟩ => show win1_3.index t (0 : Fin 2) * 10000 + 1 * (j 0).val = t.val * 10000 + (j 0).val; omega
    | ⟨1, _⟩ => show win1_3.index t (1 : Fin 2) * 16 + 1 * (j 1).val = (j 1).val; omega
  rw [hA, hB, hC, lin1_rows, hE]
  rfl

/-- An array index lies in point `t`'s result block iff each coordinate is in the block's range on its axis. -/
theorem mem_blk1 (t : Fin cfg1.N) (i : S100000x16.Idx) :
    i ∈ ((cfg1.win 3).blk t).view.set ↔ ∀ a : Fin 2, win1_3.index t a * S10000x16.size a ≤ (i a).val
      ∧ (i a).val < win1_3.index t a * S10000x16.size a + S10000x16.size a := by
  show i ∈ ((View.whole main_v45).slice (win1_3.rect t)).set ↔ _
  rw [View.set_slice_whole, Rect.mem_set_unit]
  exact Iff.rfl

/-- The ten result blocks cover the array: row `r` is in block `r / 10000`. -/
theorem cover1 (i : S100000x16.Idx) : ∃ t : Fin cfg1.N, (cfg1.win 3).flush t = true ∧ i ∈ ((cfg1.win 3).blk t).view.set := by
  have hi0 : (i 0).val < 100000 := (i 0).isLt
  have hi1 : (i 1).val < 16 := (i 1).isLt
  have hN : cfg1.N = 10 := N_1
  have hlt : (i 0).val / 10000 < cfg1.N := by rw [hN]; omega
  obtain ⟨-, -, -, -, -, -, e30, e31⟩ := idx1 ⟨(i 0).val / 10000, hlt⟩
  refine ⟨⟨(i 0).val / 10000, hlt⟩, flush1_3 _, ?_⟩
  rw [mem_blk1]
  intro a
  match a with
  | ⟨0, _⟩ =>
    show win1_3.index ⟨(i 0).val / 10000, hlt⟩ (0 : Fin 2) * 10000 ≤ (i 0).val
      ∧ (i 0).val < win1_3.index ⟨(i 0).val / 10000, hlt⟩ (0 : Fin 2) * 10000 + 10000
    rw [e30]
    show (i 0).val / 10000 * 10000 ≤ (i 0).val ∧ (i 0).val < (i 0).val / 10000 * 10000 + 10000
    omega
  | ⟨1, _⟩ =>
    show win1_3.index ⟨(i 0).val / 10000, hlt⟩ (1 : Fin 2) * 16 ≤ (i 1).val
      ∧ (i 1).val < win1_3.index ⟨(i 0).val / 10000, hlt⟩ (1 : Fin 2) * 16 + 16
    rw [e31]
    omega

/-- After the region the result array is `relu (A + b) · W` of the arrays the region was entered with. -/
theorem final1 (c : Dev nD) :
    (dat1 V c).arrAt 3 cfg1.N = lin1 (V c main_v43) (biasRow (V c main_v44)) (V c main_arg4) :=
  (dat1 V c).arrAt_eq_of_cover 3 _ (fun t _ => flushed1 V c t) cover1

end Cert.KernelIdeal.Tiles

end
-- ==== Proof.Tile2.lean ====
/-
  The third region as one function of the arrays it finds.

  Point `t` of the ten grid points reads rows `10000·t … 10000·t + 9999` of the aggregated features, the
  whole bias row, the whole `16 × 1` weight column and the `1 × 1` scalar bias, and writes the same rows of
  the one-column result. The body's value on a block is `tanh (relu (A + b) · W + c)` of that block
  (KernelBodies.lean), a function that computes each row from the same row of `A` alone (Layers.lean); the
  ten blocks tile the 100000 rows. So after the region the result array is that function of the arrays the
  region was entered with.
-/
import proofs.«170745_j6098853560889_1_alg».proof.Proof.Gen.KernelIdeal.Frame
import proofs.«170745_j6098853560889_1_alg».proof.Proof.KernelBodies
import Idealize.ShloMosaic.Lib.Pipeline.Value

set_option maxRecDepth 16384

noncomputable section

namespace Cert.KernelIdeal.Tiles

open Cert.KernelIdeal Cert.KernelIdeal.Gen Cert.KernelIdeal.Bodies Cert.Gcn
open Idealize.ShloMosaic Idealize.ShloMosaic.TcCoe Idealize.ShloMosaic.ValueIdx Idealize.SL.Sem
open Idealize.ShloMosaic.Pipeline (Dat)

-- the TensorCore's buffer contents when the region is entered, at the ideal values
variable (V : (c : Dev nD) → (b : Ref sig .tc) → Buf (Elt Ideal) ((c : Thread nD τ).loc b))

/-- The printed index maps over the ten grid points: the feature window and the result window sit at block
    row `t`, block column `0`; the bias row, the weights and the scalar are their whole arrays at every point. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of `tanh (relu (A + b) · W + c)` of the arrays as the region finds them. -/
theorem flushed2 (c : Dev nD) (t : Fin cfg2.N) :
    (dat2 V c).flushed 4 t = ((cfg2.win 4).blk t).view.read (Elt Ideal)
      (head (V c main_v57) (biasRow (V c main_v58)) (V c main_arg6) (V c main_v59 (ix2 0 0))) := by
  show (cfg2.win 4).cut (grid2.coords t) ((dat2 V c).after 4 t) = _
  rw [after2_4]
  unfold out2_4
  rw [View.canon_unit_zero zeros2]
  simp only [View.ld_unit_zero (S := S10000x16) zeros2, View.ld_unit_zero (S := S1x16) zeros2,
    View.ld_unit_zero (S := S16x1) zeros2, View.ld_unit_zero (S := S1x1) zeros2]
  rw [pay2_eq]
  obtain ⟨e00, e01, e10, e11, e20, e21, e30, e31, e40, e41⟩ := idx2 t
  funext j
  show head (iblk2 V c 0 t) (biasRow (iblk2 V c 1 t)) (iblk2 V c 2 t) (iblk2 V c 3 t (ix2 0 0)) j
    = head (V c main_v57) (biasRow (V c main_v58)) (V c main_arg6) (V c main_v59 (ix2 0 0)) (((cfg2.win 4).blk t).view.emb j)
  have ht : t.val < 10 := lt_of_lt_of_eq t.isLt N_2
  -- the feature block is rows 10000·t … of the feature array
  have hA : iblk2 V c 0 t = rows (blockRows t.val ht) (V c main_v57) := by
    funext y
    show V c main_v57 (((cfg2.win 0).blk t).view.emb y) = V c main_v57 (ix2 (blockRows t.val ht (row y)) (col y))
    refine congrArg (V c main_v57) (funext fun a => Fin.ext ?_)
    match a with
    | ⟨0, _⟩ => show win2_0.index t (0 : Fin 2) * 10000 + 1 * (y 0).val = t.val * 10000 + (y 0).val; omega
    | ⟨1, _⟩ => show win2_0.index t (1 : Fin 2) * 16 + 1 * (y 1).val = (y 1).val; omega
  -- the bias row, the weight column and the scalar are their whole arrays
  have hB : iblk2 V c 1 t = V c main_v58 := by
    funext y
    show V c main_v58 (((cfg2.win 1).blk t).view.emb y) = V c main_v58 y
    refine congrArg (V c main_v58) (funext fun a => Fin.ext ?_)
    match a with
    | ⟨0, _⟩ => show win2_1.index t (0 : Fin 2) * 1 + 1 * (y 0).val = (y 0).val; omega
    | ⟨1, _⟩ => show win2_1.index t (1 : Fin 2) * 16 + 1 * (y 1).val = (y 1).val; omega
  have hC : iblk2 V c 2 t = V c main_arg6 := by
    funext y
    show V c main_arg6 (((cfg2.win 2).blk t).view.emb y) = V c main_arg6 y
    refine congrArg (V c main_arg6) (funext fun a => Fin.ext ?_)
    match a with
    | ⟨0, _⟩ => show win2_2.index t (0 : Fin 2) * 16 + 1 * (y 0).val = (y 0).val; omega
    | ⟨1, _⟩ => show win2_2.index t (1 : Fin 2) * 1 + 1 * (y 1).val = (y 1).val; omega
  have hD : iblk2 V c 3 t = V c main_v59 := by
    funext y
    show V c main_v59 (((cfg2.win 3).blk t).view.emb y) = V c main_v59 y
    refine congrArg (V c main_v59) (funext fun a => Fin.ext ?_)
    match a with
    | ⟨0, _⟩ => show win2_3.index t (0 : Fin 2) * 1 + 1 * (y 0).val = (y 0).val; omega
    | ⟨1, _⟩ => show win2_3.index t (1 : Fin 2) * 1 + 1 * (y 1).val = (y 1).val; omega
  -- an entry of the result block sits in the array at row 10000·t + its row, at its own column
  have hE : ((cfg2.win 4).blk t).view.emb j = ix2 (blockRows t.val ht (row j)) (col j) := by
    funext a
    refine Fin.ext ?_
    match a with
    | ⟨0, _⟩ => show win2_4.index t (0 : Fin 2) * 10000 + 1 * (j 0).val = t.val * 10000 + (j 0).val; omega
    | ⟨1, _⟩ => show win2_4.index t (1 : Fin 2) * 1 + 1 * (j 1).val = (j 1).val; omega
  rw [hA, hB, hC, hD, head_rows, hE]
  rfl

/-- An array index lies in point `t`'s result block iff each coordinate is in the block's range on its axis. -/
theorem mem_blk2 (t : Fin cfg2.N) (i : S100000x1.Idx) :
    i ∈ ((cfg2.win 4).blk t).view.set ↔ ∀ a : Fin 2, win2_4.index t a * S10000x1.size a ≤ (i a).val
      ∧ (i a).val < win2_4.index t a * S10000x1.size a + S10000x1.size a := by
  show i ∈ ((View.whole main_v60).slice (win2_4.rect t)).set ↔ _
  rw [View.set_slice_whole, Rect.mem_set_unit]
  exact Iff.rfl

/-- The ten result blocks cover the array: row `r` is in block `r / 10000`. -/
theorem cover2 (i : S100000x1.Idx) : ∃ t : Fin cfg2.N, (cfg2.win 4).flush t = true ∧ i ∈ ((cfg2.win 4).blk t).view.set := by
  have hi0 : (i 0).val < 100000 := (i 0).isLt
  have hi1 : (i 1).val < 1 := (i 1).isLt
  have hN : cfg2.N = 10 := N_2
  have hlt : (i 0).val / 10000 < cfg2.N := by rw [hN]; omega
  obtain ⟨-, -, -, -, -, -, -, -, e40, e41⟩ := idx2 ⟨(i 0).val / 10000, hlt⟩
  refine ⟨⟨(i 0).val / 10000, hlt⟩, flush2_4 _, ?_⟩
  rw [mem_blk2]
  intro a
  match a with
  | ⟨0, _⟩ =>
    show win2_4.index ⟨(i 0).val / 10000, hlt⟩ (0 : Fin 2) * 10000 ≤ (i 0).val
      ∧ (i 0).val < win2_4.index ⟨(i 0).val / 10000, hlt⟩ (0 : Fin 2) * 10000 + 10000
    rw [e40]
    show (i 0).val / 10000 * 10000 ≤ (i 0).val ∧ (i 0).val < (i 0).val / 10000 * 10000 + 10000
    omega
  | ⟨1, _⟩ =>
    show win2_4.index ⟨(i 0).val / 10000, hlt⟩ (1 : Fin 2) * 1 ≤ (i 1).val
      ∧ (i 1).val < win2_4.index ⟨(i 0).val / 10000, hlt⟩ (1 : Fin 2) * 1 + 1
    rw [e41]
    omega

/-- After the region the result array is `tanh (relu (A + b) · W + c)` of the arrays the region was entered with. -/
theorem final2 (c : Dev nD) :
    (dat2 V c).arrAt 4 cfg2.N = head (V c main_v57) (biasRow (V c main_v58)) (V c main_arg6) (V c main_v59 (ix2 0 0)) :=
  (dat2 V c).arrAt_eq_of_cover 4 _ (fun t _ => flushed2 V c t) cover2

end Cert.KernelIdeal.Tiles

end
-- ==== Proof.Network.lean ====
/-
  The network as one function of its eight arguments, in the host's operations.

  Both programs start from the edge list `e` (two rows of 3 200 000 node numbers) and build the same graph data:

    * `srcs e`, `dsts e`: each edge's source and destination, the 100 000 self loops `n → n` appended;
    * `deg e`: how many edges end at each node (a scatter-add of ones), and `dinv e = deg^(-1/2)` where the
      degree is positive, `0` elsewhere;
    * `norm e`: the weight `dinv (src) · dinv (dst)` of every edge, and `normCol e` the same as a column;
    * `propagate e H`: the feature array `H` gathered at every edge's source, scaled by the edge's weight and
      summed into the edge's destination (a gather, a product, a scatter-add into zeros).

  `wrap` is jnp's reading of a negative index (add the extent), which both programs apply before each gather.
  The reference then composes `propagate` with three dense stages written with the host's `dot_general`:
  `refNet`. Everything here is stated for any float instance; nothing is evaluated.
-/
import proofs.«170745_j6098853560889_1_alg».proof.ReferenceIdeal
import proofs.«170745_j6098853560889_1_alg».proof.Proof.Gen.ReferenceIdeal

noncomputable section

namespace Cert.Gcn

open Cert.ReferenceIdeal Cert.ReferenceIdeal.Facts₀ Idealize.ShloMosaic

variable {F : FTy → Type} [FloatOps F]

/-- Row `r` of the edge list with the self loops `0, 1, …, 99 999` appended (`hs`: row `r` is a slice of the list). -/
def ends (off : Fin 2 → Nat) (hs : S2x3200000.Slices off S1x3200000) (e : IVec S2x3200000 32) : IVec S3300000 32 :=
  concatenate S3300000 0
    [⟨S3200000, shapeCast _ (extractStridedSlice S1x3200000 off e hs) shapeCasts_S1x3200000_S3200000⟩,
     ⟨S100000, iotaInDim S100000 32 0⟩] concatenates_S3200000_S100000_S3300000_d0

/-- Every edge's source node. -/
def srcs (e : IVec S2x3200000 32) : IVec S3300000 32 := ends ![0, 0] slices_S2x3200000_S1x3200000_0_0 e
/-- Every edge's destination node. -/
def dsts (e : IVec S2x3200000 32) : IVec S3300000 32 := ends ![1, 0] slices_S2x3200000_S1x3200000_1_0 e

/-- A negative node number counted from the end: `s + 100000` where `s < 0`, else `s`. -/
def wrap (s : IVec S3300000 32) : IVec S3300000 32 :=
  select (cmpi .slt s (broadcastInDim S3300000 ![] bcast_S_S3300000 (constantI S_ 32 0#32)))
    (addi s (broadcastInDim S3300000 ![] bcast_S_S3300000 (constantI S_ 32 100000#32))) s

/-- A per-edge vector as a one-column array (the shape gathers and scatters take their indices in). -/
abbrev asCol {α : Type} (v : S3300000.Idx → α) : S3300000x1.Idx → α :=
  broadcastInDim S3300000x1 ![0] bcast_S3300000_S3300000x1_0 v

/-- The number of edges ending at each node. -/
def deg (e : IVec S2x3200000 32) : FVec F S100000 .f32 :=
  Host.scatterAdd scatter_S100000_S3300000x1_S3300000_n_0_0_1
    (broadcastInDim S100000 ![] bcast_S_S100000 (constant S_ .f32 0x00000000#32)) (asCol (dsts e))
    (broadcastInDim S3300000 ![] bcast_S_S3300000 (constant S_ .f32 0x3F800000#32))

/-- `r` where the mask `p` holds and the scalar `z` elsewhere: jnp's `where (p, r, z)`. -/
def dinvOf (p : IVec S100000 1) (r : FVec F S100000 .f32) (z : FVec F S_ .f32) : FVec F S100000 .f32 :=
  select p r (broadcastInDim S100000 ![] bcast_S_S100000 (id z))

/-- `deg^(-1/2)` where the degree is positive, zero elsewhere. -/
def dinv (e : IVec S2x3200000 32) : FVec F S100000 .f32 :=
  dinvOf (cmpf .ogt (deg (F := F) e) (broadcastInDim S100000 ![] bcast_S_S100000 (constant S_ .f32 0x00000000#32)))
    (Host.rsqrt (deg (F := F) e)) (constant S_ .f32 0x00000000#32)

/-- The product of a per-node value `d` at every edge's source `s` and at its destination `t`. -/
def normOf (d : FVec F S100000 .f32) (s t : IVec S3300000 32) : FVec F S3300000 .f32 :=
  mulf (Host.gather gather_S100000_S3300000x1_S3300000_n_0_n_n_0_1_1 d (asCol (wrap s)))
    (Host.gather gather_S100000_S3300000x1_S3300000_n_0_n_n_0_1_1 d (asCol (wrap t)))

/-- Every edge's weight `dinv (source) · dinv (destination)`. -/
def norm (e : IVec S2x3200000 32) : FVec F S3300000 .f32 := normOf (dinv (F := F) e) (srcs e) (dsts e)

/-- The edge weights as a column. -/
def normCol (e : IVec S2x3200000 32) : FVec F S3300000x1 .f32 := asCol (norm (F := F) e)

/-- Gather `H` at the sources `s`, scale by the edge weights `w`, sum at the destinations `t`. -/
def propagateOf (s t : IVec S3300000 32) (w : FVec F S3300000 .f32) (H : FVec F S100000x16 .f32) : FVec F S100000x16 .f32 :=
  Host.scatterAdd scatter_S100000x16_S3300000x1_S3300000x16_1_0_0_1
    (broadcastInDim S100000x16 ![] bcast_S_S100000x16 (constant S_ .f32 0x00000000#32)) (asCol t)
    (mulf (Host.gather gather_S100000x16_S3300000x1_S3300000x16_1_0_n_n_0_1_116 H (asCol (wrap s)))
      (broadcastInDim S3300000x16 ![0, 1] bcast_S3300000x1_S3300000x16_0_1 (asCol w)))

/-- One round of message passing over the graph of the edge list `e`. -/
def propagate (e : IVec S2x3200000 32) (H : FVec F S100000x16 .f32) : FVec F S100000x16 .f32 :=
  propagateOf (srcs e) (dsts e) (norm (F := F) e) H

/-! ## The reference's dense stages, as it spells them -/

/-- A bias vector added to every row, then the positive part: `max (A + b, 0)`, the bias broadcast in two steps
    and the zero a broadcast scalar, as jax lowers `relu (agg + b)`. -/
def refAct (A : FVec F S100000x16 .f32) (b : FVec F S16 .f32) : FVec F S100000x16 .f32 :=
  maximumf (addf A (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- `x · W₁`. -/
def ref0 (x : FVec F S100000x1 .f32) (W : FVec F S1x16 .f32) : FVec F S100000x16 .f32 :=
  Host.dotGeneral dot_S100000x1_S1x16_S100000x16_1_0_0_1_n_n none x W

/-- `relu (A + b) · W₂`. -/
def ref1 (A : FVec F S100000x16 .f32) (b : FVec F S16 .f32) (W : FVec F S16x16 .f32) : FVec F S100000x16 .f32 :=
  Host.dotGeneral dot_S100000x16_S16x16_S100000x16_1_0_0_1_n_n none (refAct A b) W

/-- `tanh (relu (A + b) · W_f + b_f)`. -/
def ref2 (A : FVec F S100000x16 .f32) (b : FVec F S16 .f32) (W : FVec F S16x1 .f32) (c : FVec F S1 .f32) : FVec F S100000x1 .f32 :=
  Host.tanh (addf (Host.dotGeneral dot_S100000x16_S16x1_S100000x1_1_0_0_1_n_n none (refAct A b) W)
    (broadcastInDim S100000x1 ![0, 1] bcast_S1x1_S100000x1_0_1 (broadcastInDim S1x1 ![1] bcast_S1_S1x1_1 c)))

/-- The reference's result as a function of its eight arguments. -/
def refNet (x : FVec F S100000x1 .f32) (e : IVec S2x3200000 32) (W1 : FVec F S1x16 .f32) (b1 : FVec F S16 .f32)
    (W2 : FVec F S16x16 .f32) (b2 : FVec F S16 .f32) (Wf : FVec F S16x1 .f32) (bf : FVec F S1 .f32) : FVec F S100000x1 .f32 :=
  ref2 (propagate e (ref1 (propagate e (ref0 x W1)) b1 W2)) b2 Wf bf

end Cert.Gcn

end
-- ==== Proof.Spec.lean ====
/-
  The network as one function of its arguments, at the extended reals: the specification both programs meet.

      net x e W₁ b₁ W₂ b₂ W_f b_f = head (P (lin1 (P (lin0 x W₁)) b₁ W₂)) b₂ W_f b_f

  with `P = propagate e` the graph's message passing (Network.lean) and `lin0`, `lin1`, `head` the dense
  layers entry by entry (Layers.lean). A bias vector enters a layer as the function of the column it is
  (`vec`), the head's scalar bias as the one number it is.
-/
import proofs.«170745_j6098853560889_1_alg».proof.Proof.Network
import proofs.«170745_j6098853560889_1_alg».proof.Proof.Layers

noncomputable section

namespace Cert.Gcn

open Cert.ReferenceIdeal Idealize.ShloMosaic Idealize.ShloMosaic.ValueIdx

/-- A vector of sixteen numbers as a function of the position. -/
abbrev vec (b : FVec Ideal S16 .f32) : Fin 16 → EReal := fun k => b (ix1 k)

/-- The network's result, node by node. -/
def net (x : FVec Ideal S100000x1 .f32) (e : IVec S2x3200000 32) (W1 : FVec Ideal S1x16 .f32) (b1 : FVec Ideal S16 .f32)
    (W2 : FVec Ideal S16x16 .f32) (b2 : FVec Ideal S16 .f32) (Wf : FVec Ideal S16x1 .f32) (bf : FVec Ideal S1 .f32) :
    FVec Ideal S100000x1 .f32 :=
  head (propagate (F := Ideal) e (lin1 (propagate (F := Ideal) e (lin0 x W1)) (vec b1) W2)) (vec b2) Wf (bf (ix1 0))

end Cert.Gcn

end
-- ==== Proof.KernelValue.lean ====
/-
  The idealized kernel's result, read off the boundaries of its run.

  Between the launch and the return the run crosses eight boundaries: three stretches of host operations,
  the first region, a stretch, the second region, a stretch, the third region. `Gen.W0` … `Gen.W8` are the
  buffer contents at the boundaries; a host stretch rewrites the buffers its operations write as their
  functions of what they read, and a region rewrites its result array as the tiled layer of the arrays it
  was entered with (Tile0 / Tile1 / Tile2.lean) and leaves every other buffer alone.

  Walking forward: at the first region's entry the source, destination and edge-weight arrays are `srcs e`,
  `dsts e`, `normCol e` of the edge list (no later stretch and no region writes them); the first region
  leaves `lin0 x W₁`; the next stretch gathers, scales and scatters it — `propagate e` — and reshapes the bias;
  the second region leaves `lin1` of that; the same stretch again; the third region leaves `head` of that.
  That composition is `net` of the eight arguments.
-/
import proofs.«170745_j6098853560889_1_alg».proof.Proof.KernelRun
import proofs.«170745_j6098853560889_1_alg».proof.Proof.Tile0
import proofs.«170745_j6098853560889_1_alg».proof.Proof.Tile1
import proofs.«170745_j6098853560889_1_alg».proof.Proof.Tile2
import proofs.«170745_j6098853560889_1_alg».proof.Proof.Spec
import Idealize.ShloMosaic.Lib.StableHlo.Run

set_option maxRecDepth 16384

noncomputable section

namespace Cert.KernelIdeal.Walk

open Cert.KernelIdeal Cert.KernelIdeal.Gen Cert.KernelIdeal.Tiles Cert.KernelIdeal.Bodies Cert.Gcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- Finishes reading the buffers that the one-pass reading leaves inside the pieces of a `concatenate`: each
    operation's result at its own buffer is its function's value, at any other buffer what was there. -/
local macro "read_rest" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## At the first region's entry (after the three opening stretches) -/

theorem W3_arg0 : W3 m ρ c (Proc.devRef .tc main_arg0) = m ((c : Thread nD τ).loc main_arg0) := by
  show after hostOps0_2 (after hostOps0_1 (after hostOps0 (W0 m ρ c))) (Proc.devRef .tc main_arg0) = _
  after_results_simp <;> rfl
theorem W3_arg2 : W3 m ρ c (Proc.devRef .tc main_arg2) = m ((c : Thread nD τ).loc main_arg2) := by
  show after hostOps0_2 (after hostOps0_1 (after hostOps0 (W0 m ρ c))) (Proc.devRef .tc main_arg2) = _
  after_results_simp <;> rfl
theorem W3_arg3 : W3 m ρ c (Proc.devRef .tc main_arg3) = m ((c : Thread nD τ).loc main_arg3) := by
  show after hostOps0_2 (after hostOps0_1 (after hostOps0 (W0 m ρ c))) (Proc.devRef .tc main_arg3) = _
  after_results_simp <;> rfl
theorem W3_arg4 : W3 m ρ c (Proc.devRef .tc main_arg4) = m ((c : Thread nD τ).loc main_arg4) := by
  show after hostOps0_2 (after hostOps0_1 (after hostOps0 (W0 m ρ c))) (Proc.devRef .tc main_arg4) = _
  after_results_simp <;> rfl
theorem W3_arg5 : W3 m ρ c (Proc.devRef .tc main_arg5) = m ((c : Thread nD τ).loc main_arg5) := by
  show after hostOps0_2 (after hostOps0_1 (after hostOps0 (W0 m ρ c))) (Proc.devRef .tc main_arg5) = _
  after_results_simp <;> rfl
theorem W3_arg6 : W3 m ρ c (Proc.devRef .tc main_arg6) = m ((c : Thread nD τ).loc main_arg6) := by
  show after hostOps0_2 (after hostOps0_1 (after hostOps0 (W0 m ρ c))) (Proc.devRef .tc main_arg6) = _
  after_results_simp <;> rfl
theorem W3_arg7 : W3 m ρ c (Proc.devRef .tc main_arg7) = m ((c : Thread nD τ).loc main_arg7) := by
  show after hostOps0_2 (after hostOps0_1 (after hostOps0 (W0 m ρ c))) (Proc.devRef .tc main_arg7) = _
  after_results_simp <;> rfl

/-- Every edge's source node, the self loops appended. -/
theorem W3_v3 : W3 m ρ c (Proc.devRef .tc main_v3) = srcs (m ((c : Thread nD τ).loc main_arg1)) := by
  show after hostOps0_2 (after hostOps0_1 (after hostOps0 (W0 m ρ c))) (Proc.devRef .tc main_v3) = _
  after_results_simp <;> rfl

/-- Every edge's destination node, the self loops appended. -/
theorem W3_v6 : W3 m ρ c (Proc.devRef .tc main_v6) = dsts (m ((c : Thread nD τ).loc main_arg1)) := by
  show after hostOps0_2 (after hostOps0_1 (after hostOps0 (W0 m ρ c))) (Proc.devRef .tc main_v6) = _
  after_results_simp <;> rfl

/-! The edge weights are read in three steps, one per opening stretch, so that no step compares more than one
    stage of the term: the degree's comparison and reciprocal square root after the first stretch, the select
    of the outlined `where` after the second (its typed buffers' transports are the identity at these literal
    buffers), the two gathers and their product after the third. -/

theorem W1_v12 : W1 m ρ c (Proc.devRef .tc main_v12)
    = cmpf .ogt (deg (F := Ideal) (m ((c : Thread nD τ).loc main_arg1))) (broadcastInDim Cert.ReferenceIdeal.S100000 ![] Cert.ReferenceIdeal.Facts₀.bcast_S_S100000 (constant Cert.ReferenceIdeal.S_ .f32 0x00000000#32)) := by
  show after hostOps0 (W0 m ρ c) (Proc.devRef .tc main_v12) = _
  after_results_simp <;> (read_rest <;> rfl)

theorem W1_v13 : W1 m ρ c (Proc.devRef .tc main_v13) = Host.rsqrt (deg (F := Ideal) (m ((c : Thread nD τ).loc main_arg1))) := by
  show after hostOps0 (W0 m ρ c) (Proc.devRef .tc main_v13) = _
  after_results_simp <;> (read_rest <;> rfl)

theorem W1_cst2 : W1 m ρ c (Proc.devRef .tc main_cst_2) = constant (F := Ideal) Cert.ReferenceIdeal.S_ .f32 0x00000000#32 := by
  show after hostOps0 (W0 m ρ c) (Proc.devRef .tc main_cst_2) = _
  after_results_simp <;> (read_rest <;> rfl)

theorem W2_v14 : W2 m ρ c (Proc.devRef .tc main_v14) = dinv (F := Ideal) (m ((c : Thread nD τ).loc main_arg1)) := by
  have h12 := W1_v12 m ρ c
  have h13 := W1_v13 m ρ c
  have hc := W1_cst2 m ρ c
  show after hostOps0_1 (W1 m ρ c) (Proc.devRef .tc main_v14) = _
  generalize W1 m ρ c = X at h12 h13 hc ⊢
  after_results_simp
  simp only [TRef.toBuf, TRef.ofBuf, cast_eq]
  rw [h12, h13, hc]
  rfl

theorem W2_v3 : W2 m ρ c (Proc.devRef .tc main_v3) = srcs (m ((c : Thread nD τ).loc main_arg1)) := by
  show after hostOps0_1 (after hostOps0 (W0 m ρ c)) (Proc.devRef .tc main_v3) = _
  after_results_simp <;> (read_rest <;> rfl)

theorem W2_v6 : W2 m ρ c (Proc.devRef .tc main_v6) = dsts (m ((c : Thread nD τ).loc main_arg1)) := by
  show after hostOps0_1 (after hostOps0 (W0 m ρ c)) (Proc.devRef .tc main_v6) = _
  after_results_simp <;> (read_rest <;> rfl)

/-- Every edge's weight, as a column. -/
theorem W3_v30 : W3 m ρ c (Proc.devRef .tc main_v30) = normCol (F := Ideal) (m ((c : Thread nD τ).loc main_arg1)) := by
  have h14 := W2_v14 m ρ c
  have h3 := W2_v3 m ρ c
  have h6 := W2_v6 m ρ c
  show after hostOps0_2 (W2 m ρ c) (Proc.devRef .tc main_v30) = _
  generalize W2 m ρ c = X at h14 h3 h6 ⊢
  after_results_simp
  rw [h14, h3, h6]
  rfl

/-! ## After the first region -/

theorem W4_v3_keep : W4 m ρ c (Proc.devRef .tc main_v3) = W3 m ρ c (Proc.devRef .tc main_v3) :=
  W4_of_ne m ρ c main_v3 (by decide)
theorem W4_v6_keep : W4 m ρ c (Proc.devRef .tc main_v6) = W3 m ρ c (Proc.devRef .tc main_v6) :=
  W4_of_ne m ρ c main_v6 (by decide)
theorem W4_v30_keep : W4 m ρ c (Proc.devRef .tc main_v30) = W3 m ρ c (Proc.devRef .tc main_v30) :=
  W4_of_ne m ρ c main_v30 (by decide)
theorem W4_arg3_keep : W4 m ρ c (Proc.devRef .tc main_arg3) = W3 m ρ c (Proc.devRef .tc main_arg3) :=
  W4_of_ne m ρ c main_arg3 (by decide)
theorem W4_arg4_keep : W4 m ρ c (Proc.devRef .tc main_arg4) = W3 m ρ c (Proc.devRef .tc main_arg4) :=
  W4_of_ne m ρ c main_arg4 (by decide)
theorem W4_arg5_keep : W4 m ρ c (Proc.devRef .tc main_arg5) = W3 m ρ c (Proc.devRef .tc main_arg5) :=
  W4_of_ne m ρ c main_arg5 (by decide)
theorem W4_arg6_keep : W4 m ρ c (Proc.devRef .tc main_arg6) = W3 m ρ c (Proc.devRef .tc main_arg6) :=
  W4_of_ne m ρ c main_arg6 (by decide)
theorem W4_arg7_keep : W4 m ρ c (Proc.devRef .tc main_arg7) = W3 m ρ c (Proc.devRef .tc main_arg7) :=
  W4_of_ne m ρ c main_arg7 (by decide)

/-- The first region leaves `x · W₁`. -/
theorem W4_v31 : W4 m ρ c (Proc.devRef .tc main_v31) = lin0 (m ((c : Thread nD τ).loc main_arg0)) (m ((c : Thread nD τ).loc main_arg2)) := by
  refine (W4_arr m ρ c 2).trans ((final0 (V3 m ρ) c).trans ?_)
  show lin0 (W3 m ρ c (Proc.devRef .tc main_arg0)) (W3 m ρ c (Proc.devRef .tc main_arg2)) = _
  rw [W3_arg0, W3_arg2]

/-! ## At the second region's entry -/

theorem W5_v3_keep : W5 m ρ c (Proc.devRef .tc main_v3) = W4 m ρ c (Proc.devRef .tc main_v3) := by
  show after hostOps1 (W4 m ρ c) (Proc.devRef .tc main_v3) = _
  after_results_simp
theorem W5_v6_keep : W5 m ρ c (Proc.devRef .tc main_v6) = W4 m ρ c (Proc.devRef .tc main_v6) := by
  show after hostOps1 (W4 m ρ c) (Proc.devRef .tc main_v6) = _
  after_results_simp
theorem W5_v30_keep : W5 m ρ c (Proc.devRef .tc main_v30) = W4 m ρ c (Proc.devRef .tc main_v30) := by
  show after hostOps1 (W4 m ρ c) (Proc.devRef .tc main_v30) = _
  after_results_simp
theorem W5_arg4_keep : W5 m ρ c (Proc.devRef .tc main_arg4) = W4 m ρ c (Proc.devRef .tc main_arg4) := by
  show after hostOps1 (W4 m ρ c) (Proc.devRef .tc main_arg4) = _
  after_results_simp
theorem W5_arg5_keep : W5 m ρ c (Proc.devRef .tc main_arg5) = W4 m ρ c (Proc.devRef .tc main_arg5) := by
  show after hostOps1 (W4 m ρ c) (Proc.devRef .tc main_arg5) = _
  after_results_simp
theorem W5_arg6_keep : W5 m ρ c (Proc.devRef .tc main_arg6) = W4 m ρ c (Proc.devRef .tc main_arg6) := by
  show after hostOps1 (W4 m ρ c) (Proc.devRef .tc main_arg6) = _
  after_results_simp
theorem W5_arg7_keep : W5 m ρ c (Proc.devRef .tc main_arg7) = W4 m ρ c (Proc.devRef .tc main_arg7) := by
  show after hostOps1 (W4 m ρ c) (Proc.devRef .tc main_arg7) = _
  after_results_simp

/-- The stretch gathers, scales and scatters the first layer's features. -/
theorem W5_v43 : W5 m ρ c (Proc.devRef .tc main_v43) = propagate (F := Ideal) (m ((c : Thread nD τ).loc main_arg1)) (lin0 (m ((c : Thread nD τ).loc main_arg0)) (m ((c : Thread nD τ).loc main_arg2))) := by
  show after hostOps1 (W4 m ρ c) (Proc.devRef .tc main_v43) = _
  after_results_simp
  rw [W4_v31, W4_v3_keep, W4_v6_keep, W4_v30_keep, W3_v3, W3_v6, W3_v30]
  rfl

/-- The reshaped bias vector, read as a row, is the vector. -/
theorem W5_bias : biasRow (W5 m ρ c (Proc.devRef .tc main_v44)) = vec (m ((c : Thread nD τ).loc main_arg3)) := by
  funext k
  show after hostOps1 (W4 m ρ c) (Proc.devRef .tc main_v44) (ix2 0 k) = _
  after_results_simp
  rw [W4_arg3_keep, W3_arg3]
  exact shapeCast_apply _ _ (ix2 0 k) (ix1 k) (by rw [Shape.rowMajor_val_one, Shape.rowMajor_val_two]; show k.val = 0 * 16 + k.val; omega)

/-! ## After the second region -/

theorem W6_v3_keep : W6 m ρ c (Proc.devRef .tc main_v3) = W5 m ρ c (Proc.devRef .tc main_v3) :=
  W6_of_ne m ρ c main_v3 (by decide)
theorem W6_v6_keep : W6 m ρ c (Proc.devRef .tc main_v6) = W5 m ρ c (Proc.devRef .tc main_v6) :=
  W6_of_ne m ρ c main_v6 (by decide)
theorem W6_v30_keep : W6 m ρ c (Proc.devRef .tc main_v30) = W5 m ρ c (Proc.devRef .tc main_v30) :=
  W6_of_ne m ρ c main_v30 (by decide)
theorem W6_arg5_keep : W6 m ρ c (Proc.devRef .tc main_arg5) = W5 m ρ c (Proc.devRef .tc main_arg5) :=
  W6_of_ne m ρ c main_arg5 (by decide)
theorem W6_arg6_keep : W6 m ρ c (Proc.devRef .tc main_arg6) = W5 m ρ c (Proc.devRef .tc main_arg6) :=
  W6_of_ne m ρ c main_arg6 (by decide)
theorem W6_arg7_keep : W6 m ρ c (Proc.devRef .tc main_arg7) = W5 m ρ c (Proc.devRef .tc main_arg7) :=
  W6_of_ne m ρ c main_arg7 (by decide)

/-- The second region leaves `relu (P H₀ + b₁) · W₂`. -/
theorem W6_v45 : W6 m ρ c (Proc.devRef .tc main_v45)
    = lin1 (propagate (F := Ideal) (m ((c : Thread nD τ).loc main_arg1)) (lin0 (m ((c : Thread nD τ).loc main_arg0)) (m ((c : Thread nD τ).loc main_arg2)))) (vec (m ((c : Thread nD τ).loc main_arg3))) (m ((c : Thread nD τ).loc main_arg4)) := by
  refine (W6_arr m ρ c 3).trans ((final1 (V5 m ρ) c).trans ?_)
  show lin1 (W5 m ρ c (Proc.devRef .tc main_v43)) (biasRow (W5 m ρ c (Proc.devRef .tc main_v44))) (W5 m ρ c (Proc.devRef .tc main_arg4)) = _
  rw [W5_v43, W5_bias, W5_arg4_keep, W4_arg4_keep, W3_arg4]

/-! ## At the third region's entry -/

theorem W7_arg6_keep : W7 m ρ c (Proc.devRef .tc main_arg6) = W6 m ρ c (Proc.devRef .tc main_arg6) := by
  show after hostOps2 (W6 m ρ c) (Proc.devRef .tc main_arg6) = _
  after_results_simp

/-- The stretch gathers, scales and scatters the second layer's features. -/
theorem W7_v57 : W7 m ρ c (Proc.devRef .tc main_v57)
    = propagate (F := Ideal) (m ((c : Thread nD τ).loc main_arg1)) (lin1 (propagate (F := Ideal) (m ((c : Thread nD τ).loc main_arg1)) (lin0 (m ((c : Thread nD τ).loc main_arg0)) (m ((c : Thread nD τ).loc main_arg2)))) (vec (m ((c : Thread nD τ).loc main_arg3))) (m ((c : Thread nD τ).loc main_arg4))) := by
  show after hostOps2 (W6 m ρ c) (Proc.devRef .tc main_v57) = _
  after_results_simp
  rw [W6_v45, W6_v3_keep, W6_v6_keep, W6_v30_keep, W5_v3_keep, W5_v6_keep, W5_v30_keep,
    W4_v3_keep, W4_v6_keep, W4_v30_keep, W3_v3, W3_v6, W3_v30]
  rfl

theorem W7_bias : biasRow (W7 m ρ c (Proc.devRef .tc main_v58)) = vec (m ((c : Thread nD τ).loc main_arg5)) := by
  funext k
  show after hostOps2 (W6 m ρ c) (Proc.devRef .tc main_v58) (ix2 0 k) = _
  after_results_simp
  rw [W6_arg5_keep, W5_arg5_keep, W4_arg5_keep, W3_arg5]
  exact shapeCast_apply _ _ (ix2 0 k) (ix1 k) (by rw [Shape.rowMajor_val_one, Shape.rowMajor_val_two]; show k.val = 0 * 16 + k.val; omega)

/-- The reshaped scalar bias is the one number. -/
theorem W7_scalar : W7 m ρ c (Proc.devRef .tc main_v59) (ix2 0 0) = m ((c : Thread nD τ).loc main_arg7) (ix1 0) := by
  show after hostOps2 (W6 m ρ c) (Proc.devRef .tc main_v59) (ix2 0 0) = _
  after_results_simp
  rw [W6_arg7_keep, W5_arg7_keep, W4_arg7_keep, W3_arg7]
  exact shapeCast_apply _ _ (ix2 0 0) (ix1 0) (by rw [Shape.rowMajor_val_one, Shape.rowMajor_val_two]; rfl)

/-! ## After the third region: the result -/

/-- The result array ends at `net` of the eight arguments. -/
theorem value : W8 m ρ c (Proc.devRef .tc main_v60)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 4).trans ((final2 (V7 m ρ) c).trans ?_)
  show head (W7 m ρ c (Proc.devRef .tc main_v57)) (biasRow (W7 m ρ c (Proc.devRef .tc main_v58))) (W7 m ρ c (Proc.devRef .tc main_arg6)) (W7 m ρ c (Proc.devRef .tc main_v59) (ix2 0 0)) = _
  rw [W7_v57, W7_bias, W7_scalar, W7_arg6_keep, W6_arg6_keep, W5_arg6_keep, W4_arg6_keep, W3_arg6]
  rfl

end Cert.KernelIdeal.Walk

end
-- ==== Proof.RefRun.lean ====
/-
  The reference's run, read back.

  The reference is a straight line of 91 host operations (the two `relu`s and the `where` that jax outlined
  stand, operation by operation, where they are called). Run in order from the launch memory, each operation
  writes its own result buffer as its function of the buffers it reads. Read in seven stretches — the graph
  data, the `where`, the edge weights, a dense stage with a round of message passing, a dense stage, another
  round, the head — each stretch leaves its result as a named function (Network.lean) of what the stretch
  before left, and every buffer it does not write as it found it. Composed, the result buffer ends at
  `refNet` of the eight arguments; the arguments are written by no operation and end as launched.
-/
import proofs.«170745_j6098853560889_1_alg».proof.Proof.Network
import proofs.«170745_j6098853560889_1_alg».proof.Proof.Gen.ReferenceIdeal
import Idealize.ShloMosaic.Lib.StableHlo.Run

noncomputable section

namespace Cert.ReferenceIdeal.HandRun

open Cert.ReferenceIdeal Cert.ReferenceIdeal.Facts₀ Cert.Gcn
open Idealize.ShloMosaic Idealize.ShloMosaic.TcCoe Idealize.SL.Sem Idealize.ShloMosaic.StableHlo

variable {F : FTy → Type} [FloatOps F]

/-! ## The program as a list of operations -/

/-- @main's 91 operations, in order. -/
abbrev ops : List (HloOp τ sig (Elt F)) :=
  [
    nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)),
    binary main_arg0 main_arg2 main_v30 ((fun l r => Host.dotGeneral dot_S100000x1_S1x16_S100000x16_1_0_0_1_n_n none l r) : (⟨S100000x1, .f32⟩ : BufTy).Contents (Elt F) → (⟨S1x16, .f32⟩ : BufTy).Contents (Elt F) → (⟨S100000x16, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x16 ![0, 1] bcast_S3300000x1_S3300000x16_0_1 : (⟨S3300000x1, .f32⟩ : BufTy).Contents (Elt F) → (⟨S3300000x16, .f32⟩ : BufTy).Contents (Elt F)),
    binary main_v55 main_v57 main_v58 (mulf : (⟨S3300000x16, .f32⟩ : BufTy).Contents (Elt F) → (⟨S3300000x16, .f32⟩ : BufTy).Contents (Elt F) → (⟨S3300000x16, .f32⟩ : BufTy).Contents (Elt F)),
    nullary main_cst_11 (constant S_ .f32 0x00000000#32),
    unary main_cst_11 main_v59 (broadcastInDim S100000x16 ![] bcast_S_S100000x16 : (⟨S_, .f32⟩ : BufTy).Contents (Elt F) → (⟨S100000x16, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg5 main_v62 (broadcastInDim S1x16 ![1] bcast_S16_S1x16_1 : (⟨S16, .f32⟩ : BufTy).Contents (Elt F) → (⟨S1x16, .f32⟩ : BufTy).Contents (Elt F)),
    unary main_v62 main_v63 (broadcastInDim S100000x16 ![0, 1] bcast_S1x16_S100000x16_0_1 : (⟨S1x16, .f32⟩ : BufTy).Contents (Elt F) → (⟨S100000x16, .f32⟩ : BufTy).Contents (Elt F)),
    binary main_v61 main_v63 main_v64 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x16, .f32⟩) main_call2_v0) (broadcastInDim S100000x16 ![] bcast_S_S100000x16),
    TRef.binary (TRef.of (T := ⟨S100000x16, .f32⟩) main_v64) (TRef.of (T := ⟨S100000x16, .f32⟩) main_call2_v0) (TRef.of (T := ⟨S100000x16, .f32⟩) main_v65) maximumf,
    binary main_v65 main_arg6 main_v66 ((fun l r => Host.dotGeneral dot_S100000x16_S16x1_S100000x1_1_0_0_1_n_n none l r) : (⟨S100000x16, .f32⟩ : BufTy).Contents (Elt F) → (⟨S16x1, .f32⟩ : BufTy).Contents (Elt F) → (⟨S100000x1, .f32⟩ : BufTy).Contents (Elt F)),
    unary main_arg7 main_v67 (broadcastInDim S1x1 ![1] bcast_S1_S1x1_1 : (⟨S1, .f32⟩ : BufTy).Contents (Elt F) → (⟨S1x1, .f32⟩ : BufTy).Contents (Elt F)),
    unary main_v67 main_v68 (broadcastInDim S100000x1 ![0, 1] bcast_S1x1_S100000x1_0_1 : (⟨S1x1, .f32⟩ : BufTy).Contents (Elt F) → (⟨S100000x1, .f32⟩ : BufTy).Contents (Elt F)),
    binary main_v66 main_v68 main_v69 (addf : (⟨S100000x1, .f32⟩ : BufTy).Contents (Elt F) → (⟨S100000x1, .f32⟩ : BufTy).Contents (Elt F) → (⟨S100000x1, .f32⟩ : BufTy).Contents (Elt F)),
    unary main_v69 main_v70 (Host.tanh : (⟨S100000x1, .f32⟩ : BufTy).Contents (Elt F) → (⟨S100000x1, .f32⟩ : BufTy).Contents (Elt F)) ]

set_option maxRecDepth 8192 in
set_option maxHeartbeats 4000000 in
/-- @main is the straight line of its operations. -/
theorem main_eq (c : Dev nD) : main (F := F) c = seq ops := rfl

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub ..⟩

/-! ## The seven stretches -/

/-- Stretch 0 of @main: operations 1 … 18. -/
def s0 : List (HloOp τ sig (Elt F)) :=
  [
    nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- Stretch 1 of @main: operations 19 … 21. -/
def s1 : List (HloOp τ sig (Elt F)) :=
  [
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Stretch 2 of @main: operations 22 … 40. -/
def s2 : List (HloOp τ sig (Elt F)) :=
  [
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- Stretch 3 of @main: operations 41 … 57. -/
def s3 : List (HloOp τ sig (Elt F)) :=
  [
    binary main_arg0 main_arg2 main_v30 ((fun l r => Host.dotGeneral dot_S100000x1_S1x16_S100000x16_1_0_0_1_n_n none l r) : (⟨S100000x1, .f32⟩ : BufTy).Contents (Elt F) → (⟨S1x16, .f32⟩ : BufTy).Contents (Elt F) → (⟨S100000x16, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- Stretch 4 of @main: operations 58 … 64. -/
def s4 : List (HloOp τ sig (Elt F)) :=
  [
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)) ]

/-- Stretch 5 of @main: operations 65 … 80. -/
def s5 : List (HloOp τ sig (Elt F)) :=
  [
    nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x16 ![0, 1] bcast_S3300000x1_S3300000x16_0_1 : (⟨S3300000x1, .f32⟩ : BufTy).Contents (Elt F) → (⟨S3300000x16, .f32⟩ : BufTy).Contents (Elt F)),
    binary main_v55 main_v57 main_v58 (mulf : (⟨S3300000x16, .f32⟩ : BufTy).Contents (Elt F) → (⟨S3300000x16, .f32⟩ : BufTy).Contents (Elt F) → (⟨S3300000x16, .f32⟩ : BufTy).Contents (Elt F)),
    nullary main_cst_11 (constant S_ .f32 0x00000000#32),
    unary main_cst_11 main_v59 (broadcastInDim S100000x16 ![] bcast_S_S100000x16 : (⟨S_, .f32⟩ : BufTy).Contents (Elt F) → (⟨S100000x16, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- Stretch 6 of @main: operations 81 … 91. -/
def s6 : List (HloOp τ sig (Elt F)) :=
  [
    unary main_arg5 main_v62 (broadcastInDim S1x16 ![1] bcast_S16_S1x16_1 : (⟨S16, .f32⟩ : BufTy).Contents (Elt F) → (⟨S1x16, .f32⟩ : BufTy).Contents (Elt F)),
    unary main_v62 main_v63 (broadcastInDim S100000x16 ![0, 1] bcast_S1x16_S100000x16_0_1 : (⟨S1x16, .f32⟩ : BufTy).Contents (Elt F) → (⟨S100000x16, .f32⟩ : BufTy).Contents (Elt F)),
    binary main_v61 main_v63 main_v64 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x16, .f32⟩) main_call2_v0) (broadcastInDim S100000x16 ![] bcast_S_S100000x16),
    TRef.binary (TRef.of (T := ⟨S100000x16, .f32⟩) main_v64) (TRef.of (T := ⟨S100000x16, .f32⟩) main_call2_v0) (TRef.of (T := ⟨S100000x16, .f32⟩) main_v65) maximumf,
    binary main_v65 main_arg6 main_v66 ((fun l r => Host.dotGeneral dot_S100000x16_S16x1_S100000x1_1_0_0_1_n_n none l r) : (⟨S100000x16, .f32⟩ : BufTy).Contents (Elt F) → (⟨S16x1, .f32⟩ : BufTy).Contents (Elt F) → (⟨S100000x1, .f32⟩ : BufTy).Contents (Elt F)),
    unary main_arg7 main_v67 (broadcastInDim S1x1 ![1] bcast_S1_S1x1_1 : (⟨S1, .f32⟩ : BufTy).Contents (Elt F) → (⟨S1x1, .f32⟩ : BufTy).Contents (Elt F)),
    unary main_v67 main_v68 (broadcastInDim S100000x1 ![0, 1] bcast_S1x1_S100000x1_0_1 : (⟨S1x1, .f32⟩ : BufTy).Contents (Elt F) → (⟨S100000x1, .f32⟩ : BufTy).Contents (Elt F)),
    binary main_v66 main_v68 main_v69 (addf : (⟨S100000x1, .f32⟩ : BufTy).Contents (Elt F) → (⟨S100000x1, .f32⟩ : BufTy).Contents (Elt F) → (⟨S100000x1, .f32⟩ : BufTy).Contents (Elt F)),
    unary main_v69 main_v70 (Host.tanh : (⟨S100000x1, .f32⟩ : BufTy).Contents (Elt F) → (⟨S100000x1, .f32⟩ : BufTy).Contents (Elt F)) ]

set_option maxRecDepth 8192 in
/-- The operations are the stretches, one after the other. -/
theorem ops_eq : (ops : List (HloOp τ sig (Elt F))) = s0 ++ (s1 ++ (s2 ++ (s3 ++ (s4 ++ (s5 ++ s6))))) := rfl

/-- Running two lists one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Finishes reading the buffers that the one-pass reading leaves inside the pieces of a `concatenate`: each
    operation's result at its own buffer is its function's value, at any other buffer what was there. -/
local macro "read_rest" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## What each stretch leaves, from any contents `V` -/

section Stretches

variable (V : Valuation τ sig (Elt F))

/-! ### Stretch 0: the edge list's two rows with the self loops, the degree, its comparison and reciprocal square root -/

theorem s0_v3 : after (s0 (F := F)) V (Proc.devRef .tc main_v3) = srcs (V (Proc.devRef .tc main_arg1)) := by
  unfold s0; after_results_simp <;> (read_rest <;> rfl)
theorem s0_v6 : after (s0 (F := F)) V (Proc.devRef .tc main_v6) = dsts (V (Proc.devRef .tc main_arg1)) := by
  unfold s0; after_results_simp <;> (read_rest <;> rfl)
theorem s0_v12 : after (s0 (F := F)) V (Proc.devRef .tc main_v12) = cmpf .ogt (deg (F := F) (V (Proc.devRef .tc main_arg1))) (broadcastInDim S100000 ![] bcast_S_S100000 (constant S_ .f32 0x00000000#32)) := by
  unfold s0; after_results_simp <;> (read_rest <;> rfl)
theorem s0_v13 : after (s0 (F := F)) V (Proc.devRef .tc main_v13) = Host.rsqrt (deg (F := F) (V (Proc.devRef .tc main_arg1))) := by
  unfold s0; after_results_simp <;> (read_rest <;> rfl)
theorem s0_cst_2 : after (s0 (F := F)) V (Proc.devRef .tc main_cst_2) = constant (F := F) S_ .f32 0x00000000#32 := by
  unfold s0; after_results_simp <;> (read_rest <;> rfl)
theorem s0_arg0 : after (s0 (F := F)) V (Proc.devRef .tc main_arg0) = (V (Proc.devRef .tc main_arg0)) := by
  unfold s0; after_results_simp
theorem s0_arg2 : after (s0 (F := F)) V (Proc.devRef .tc main_arg2) = (V (Proc.devRef .tc main_arg2)) := by
  unfold s0; after_results_simp
theorem s0_arg3 : after (s0 (F := F)) V (Proc.devRef .tc main_arg3) = (V (Proc.devRef .tc main_arg3)) := by
  unfold s0; after_results_simp
theorem s0_arg4 : after (s0 (F := F)) V (Proc.devRef .tc main_arg4) = (V (Proc.devRef .tc main_arg4)) := by
  unfold s0; after_results_simp
theorem s0_arg5 : after (s0 (F := F)) V (Proc.devRef .tc main_arg5) = (V (Proc.devRef .tc main_arg5)) := by
  unfold s0; after_results_simp
theorem s0_arg6 : after (s0 (F := F)) V (Proc.devRef .tc main_arg6) = (V (Proc.devRef .tc main_arg6)) := by
  unfold s0; after_results_simp
theorem s0_arg7 : after (s0 (F := F)) V (Proc.devRef .tc main_arg7) = (V (Proc.devRef .tc main_arg7)) := by
  unfold s0; after_results_simp

/-! ### Stretch 1: the outlined `where` -/

theorem s1_v14 : after (s1 (F := F)) V (Proc.devRef .tc main_v14) = dinvOf (V (Proc.devRef .tc main_v12)) (V (Proc.devRef .tc main_v13)) (V (Proc.devRef .tc main_cst_2)) := by
  unfold s1; after_results_simp
  simp only [TRef.toBuf, TRef.ofBuf, cast_eq]
  rfl
theorem s1_v3 : after (s1 (F := F)) V (Proc.devRef .tc main_v3) = (V (Proc.devRef .tc main_v3)) := by
  unfold s1; after_results_simp
theorem s1_v6 : after (s1 (F := F)) V (Proc.devRef .tc main_v6) = (V (Proc.devRef .tc main_v6)) := by
  unfold s1; after_results_simp
theorem s1_arg0 : after (s1 (F := F)) V (Proc.devRef .tc main_arg0) = (V (Proc.devRef .tc main_arg0)) := by
  unfold s1; after_results_simp
theorem s1_arg2 : after (s1 (F := F)) V (Proc.devRef .tc main_arg2) = (V (Proc.devRef .tc main_arg2)) := by
  unfold s1; after_results_simp
theorem s1_arg3 : after (s1 (F := F)) V (Proc.devRef .tc main_arg3) = (V (Proc.devRef .tc main_arg3)) := by
  unfold s1; after_results_simp
theorem s1_arg4 : after (s1 (F := F)) V (Proc.devRef .tc main_arg4) = (V (Proc.devRef .tc main_arg4)) := by
  unfold s1; after_results_simp
theorem s1_arg5 : after (s1 (F := F)) V (Proc.devRef .tc main_arg5) = (V (Proc.devRef .tc main_arg5)) := by
  unfold s1; after_results_simp
theorem s1_arg6 : after (s1 (F := F)) V (Proc.devRef .tc main_arg6) = (V (Proc.devRef .tc main_arg6)) := by
  unfold s1; after_results_simp
theorem s1_arg7 : after (s1 (F := F)) V (Proc.devRef .tc main_arg7) = (V (Proc.devRef .tc main_arg7)) := by
  unfold s1; after_results_simp

/-! ### Stretch 2: the two gathers of `dinv` and their product -/

theorem s2_v29 : after (s2 (F := F)) V (Proc.devRef .tc main_v29) = normOf (V (Proc.devRef .tc main_v14)) (V (Proc.devRef .tc main_v3)) (V (Proc.devRef .tc main_v6)) := by
  unfold s2; after_results_simp <;> rfl
theorem s2_v3 : after (s2 (F := F)) V (Proc.devRef .tc main_v3) = (V (Proc.devRef .tc main_v3)) := by
  unfold s2; after_results_simp
theorem s2_v6 : after (s2 (F := F)) V (Proc.devRef .tc main_v6) = (V (Proc.devRef .tc main_v6)) := by
  unfold s2; after_results_simp
theorem s2_arg0 : after (s2 (F := F)) V (Proc.devRef .tc main_arg0) = (V (Proc.devRef .tc main_arg0)) := by
  unfold s2; after_results_simp
theorem s2_arg2 : after (s2 (F := F)) V (Proc.devRef .tc main_arg2) = (V (Proc.devRef .tc main_arg2)) := by
  unfold s2; after_results_simp
theorem s2_arg3 : after (s2 (F := F)) V (Proc.devRef .tc main_arg3) = (V (Proc.devRef .tc main_arg3)) := by
  unfold s2; after_results_simp
theorem s2_arg4 : after (s2 (F := F)) V (Proc.devRef .tc main_arg4) = (V (Proc.devRef .tc main_arg4)) := by
  unfold s2; after_results_simp
theorem s2_arg5 : after (s2 (F := F)) V (Proc.devRef .tc main_arg5) = (V (Proc.devRef .tc main_arg5)) := by
  unfold s2; after_results_simp
theorem s2_arg6 : after (s2 (F := F)) V (Proc.devRef .tc main_arg6) = (V (Proc.devRef .tc main_arg6)) := by
  unfold s2; after_results_simp
theorem s2_arg7 : after (s2 (F := F)) V (Proc.devRef .tc main_arg7) = (V (Proc.devRef .tc main_arg7)) := by
  unfold s2; after_results_simp

/-! ### Stretch 3: `x · W₁` and the first round of message passing -/

theorem s3_v43 : after (s3 (F := F)) V (Proc.devRef .tc main_v43)
    = propagateOf (V (Proc.devRef .tc main_v3)) (V (Proc.devRef .tc main_v6)) (V (Proc.devRef .tc main_v29)) (ref0 (V (Proc.devRef .tc main_arg0)) (V (Proc.devRef .tc main_arg2))) := by
  unfold s3; after_results_simp <;> rfl
theorem s3_v3 : after (s3 (F := F)) V (Proc.devRef .tc main_v3) = (V (Proc.devRef .tc main_v3)) := by
  unfold s3; after_results_simp
theorem s3_v6 : after (s3 (F := F)) V (Proc.devRef .tc main_v6) = (V (Proc.devRef .tc main_v6)) := by
  unfold s3; after_results_simp
theorem s3_v29 : after (s3 (F := F)) V (Proc.devRef .tc main_v29) = (V (Proc.devRef .tc main_v29)) := by
  unfold s3; after_results_simp
theorem s3_arg3 : after (s3 (F := F)) V (Proc.devRef .tc main_arg3) = (V (Proc.devRef .tc main_arg3)) := by
  unfold s3; after_results_simp
theorem s3_arg4 : after (s3 (F := F)) V (Proc.devRef .tc main_arg4) = (V (Proc.devRef .tc main_arg4)) := by
  unfold s3; after_results_simp
theorem s3_arg5 : after (s3 (F := F)) V (Proc.devRef .tc main_arg5) = (V (Proc.devRef .tc main_arg5)) := by
  unfold s3; after_results_simp
theorem s3_arg6 : after (s3 (F := F)) V (Proc.devRef .tc main_arg6) = (V (Proc.devRef .tc main_arg6)) := by
  unfold s3; after_results_simp
theorem s3_arg7 : after (s3 (F := F)) V (Proc.devRef .tc main_arg7) = (V (Proc.devRef .tc main_arg7)) := by
  unfold s3; after_results_simp

/-! ### Stretch 4: bias, `relu`, `· W₂` -/

theorem s4_v48 : after (s4 (F := F)) V (Proc.devRef .tc main_v48) = ref1 (V (Proc.devRef .tc main_v43)) (V (Proc.devRef .tc main_arg3)) (V (Proc.devRef .tc main_arg4)) := by
  unfold s4; after_results_simp
  simp only [TRef.toBuf, TRef.ofBuf, cast_eq]
  rfl
theorem s4_v3 : after (s4 (F := F)) V (Proc.devRef .tc main_v3) = (V (Proc.devRef .tc main_v3)) := by
  unfold s4; after_results_simp
theorem s4_v6 : after (s4 (F := F)) V (Proc.devRef .tc main_v6) = (V (Proc.devRef .tc main_v6)) := by
  unfold s4; after_results_simp
theorem s4_v29 : after (s4 (F := F)) V (Proc.devRef .tc main_v29) = (V (Proc.devRef .tc main_v29)) := by
  unfold s4; after_results_simp
theorem s4_arg5 : after (s4 (F := F)) V (Proc.devRef .tc main_arg5) = (V (Proc.devRef .tc main_arg5)) := by
  unfold s4; after_results_simp
theorem s4_arg6 : after (s4 (F := F)) V (Proc.devRef .tc main_arg6) = (V (Proc.devRef .tc main_arg6)) := by
  unfold s4; after_results_simp
theorem s4_arg7 : after (s4 (F := F)) V (Proc.devRef .tc main_arg7) = (V (Proc.devRef .tc main_arg7)) := by
  unfold s4; after_results_simp

/-! ### Stretch 5: the second round of message passing -/

theorem s5_v61 : after (s5 (F := F)) V (Proc.devRef .tc main_v61)
    = propagateOf (V (Proc.devRef .tc main_v3)) (V (Proc.devRef .tc main_v6)) (V (Proc.devRef .tc main_v29)) (V (Proc.devRef .tc main_v48)) := by
  unfold s5; after_results_simp <;> rfl
theorem s5_arg5 : after (s5 (F := F)) V (Proc.devRef .tc main_arg5) = (V (Proc.devRef .tc main_arg5)) := by
  unfold s5; after_results_simp
theorem s5_arg6 : after (s5 (F := F)) V (Proc.devRef .tc main_arg6) = (V (Proc.devRef .tc main_arg6)) := by
  unfold s5; after_results_simp
theorem s5_arg7 : after (s5 (F := F)) V (Proc.devRef .tc main_arg7) = (V (Proc.devRef .tc main_arg7)) := by
  unfold s5; after_results_simp

/-! ### Stretch 6: bias, `relu`, `· W_f`, bias, `tanh` -/

theorem s6_v70 : after (s6 (F := F)) V (Proc.devRef .tc main_v70) = ref2 (V (Proc.devRef .tc main_v61)) (V (Proc.devRef .tc main_arg5)) (V (Proc.devRef .tc main_arg6)) (V (Proc.devRef .tc main_arg7)) := by
  unfold s6; after_results_simp
  simp only [TRef.toBuf, TRef.ofBuf, cast_eq]
  rfl

end Stretches

/-! ## The whole line -/

set_option maxRecDepth 8192 in
/-- From any contents the result buffer ends at `refNet` of the arguments' contents. -/
theorem out_eq (V : Valuation τ sig (Elt F)) :
    after ops V (Proc.devRef .tc main_v70)
      = refNet (F := F) (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [ops_eq]
  simp only [after_app]
  rw [s6_v70]
  rw [s5_v61, s5_arg5, s5_arg6, s5_arg7]
  rw [s4_v48, s4_v3, s4_v6, s4_v29, s4_arg5, s4_arg6, s4_arg7]
  rw [s3_v43, s3_v3, s3_v6, s3_v29, s3_arg3, s3_arg4, s3_arg5, s3_arg6, s3_arg7]
  rw [s2_v29, s2_v3, s2_v6, s2_arg0, s2_arg2, s2_arg3, s2_arg4, s2_arg5, s2_arg6, s2_arg7]
  rw [s1_v14, s1_v3, s1_v6, s1_arg0, s1_arg2, s1_arg3, s1_arg4, s1_arg5, s1_arg6, s1_arg7]
  rw [s0_v12, s0_v13, s0_cst_2, s0_v3, s0_v6, s0_arg0, s0_arg2, s0_arg3, s0_arg4, s0_arg5, s0_arg6, s0_arg7]
  rfl

set_option maxRecDepth 8192 in
set_option maxHeartbeats 4000000 in
/-- From any memory with zero counters every weakly fair execution of @main terminates with the result at
    `refNet` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70)
        = refNet (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v70).trans ((out_eq _).trans rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.HandRun

end
-- ==== Proof.RefLayers.lean ====
/-
  The reference's dense stages are the layers.

  The reference writes each dense stage with the host's `dot_general` on the whole 100000-row array, the
  bias vector broadcast first to a row and then down the rows, the zero of the `relu` a broadcast scalar,
  and `tanh` as the host's. Read entry by entry at the extended reals: `dot_general` of a plain product is
  the sum over the inner index (LibPlainDot.lean), the two-step broadcast reads the bias at the entry's
  column, and the host's `tanh` is the same function as the tiled unit's. So the reference's result is `net`.
-/
import proofs.«170745_j6098853560889_1_alg».proof.Proof.Spec
import proofs.«170745_j6098853560889_1_alg».proof.Proof.LibPlainDot
import Idealize.ShloMosaic.Lib.Pipeline.Value
import Idealize.ShloMosaic.PureOps.Ideal.Laws

noncomputable section

namespace Cert.Gcn

open Cert.ReferenceIdeal Cert.ReferenceIdeal.Facts₀ Cert.PlainDot
open Idealize.ShloMosaic Idealize.ShloMosaic.ValueIdx

theorem plainR0 : IsPlain dot_S100000x1_S1x16_S100000x16_1_0_0_1_n_n := ⟨rfl, rfl, rfl, rfl, rfl, rfl⟩
theorem plainR1 : IsPlain dot_S100000x16_S16x16_S100000x16_1_0_0_1_n_n := ⟨rfl, rfl, rfl, rfl, rfl, rfl⟩
theorem plainR2 : IsPlain dot_S100000x16_S16x1_S100000x1_1_0_0_1_n_n := ⟨rfl, rfl, rfl, rfl, rfl, rfl⟩

/-- `x · W₁` by the host's `dot_general` is `lin0`. -/
theorem ref0_eq (x : FVec Ideal S100000x1 .f32) (W : FVec Ideal S1x16 .f32) : ref0 (F := Ideal) x W = lin0 x W := by
  funext i
  obtain ⟨p, q, rfl⟩ : ∃ (p : Fin 100000) (q : Fin 16), i = ix2 p q := ⟨i 0, i 1, eq_ix2 i⟩
  exact dotGeneral_apply _ plainR0 none x W p q

/-- The reference's `max (A + b, 0)` at entry `(p, k)`: the bias read at column `k`, the zero the real zero. -/
theorem refAct_apply (A : FVec Ideal S100000x16 .f32) (b : FVec Ideal S16 .f32) (p : Fin 100000) (k : Fin 16) :
    refAct (F := Ideal) A b (ix2 p k) = act A (vec b) (ix2 p k) := by
  unfold refAct
  show max (A (ix2 p k) + broadcastInDim S100000x16 ![0, 1] bcast_S1x16_S100000x16_0_1 (broadcastInDim S1x16 ![1] bcast_S16_S1x16_1 b) (ix2 p k))
      (broadcastInDim S100000x16 ![] bcast_S_S100000x16 (constant (F := Ideal) S_ .f32 0x00000000#32) (ix2 p k))
    = max (A (ix2 p k) + b (ix1 k)) 0
  rw [broadcastInDim_apply _ bcast_S1x16_S100000x16_0_1 _ (ix2 p k) (ix2 0 k) (fun a => by
      match a with
      | ⟨0, _⟩ => rfl
      | ⟨1, _⟩ => rfl),
    broadcastInDim_apply _ bcast_S16_S1x16_1 b (ix2 0 k) (ix1 k) (fun a => by
      match a with
      | ⟨0, _⟩ => rfl),
    broadcastInDim_apply _ bcast_S_S100000x16 _ (ix2 p k) ix0 (fun a => a.elim0)]
  show max _ (Ideal.ofBits .f32 0x00000000#32) = _
  rw [Ideal.ofBits_zero_f32]

/-- `relu (A + b) · W₂` by the host's operations is `lin1`. -/
theorem ref1_eq (A : FVec Ideal S100000x16 .f32) (b : FVec Ideal S16 .f32) (W : FVec Ideal S16x16 .f32) :
    ref1 (F := Ideal) A b W = lin1 A (vec b) W := by
  funext i
  obtain ⟨p, q, rfl⟩ : ∃ (p : Fin 100000) (q : Fin 16), i = ix2 p q := ⟨i 0, i 1, eq_ix2 i⟩
  refine (dotGeneral_apply _ plainR1 none _ W p q).trans ?_
  exact Finset.sum_congr rfl fun k _ => congrArg (· * W (ix2 k q)) (refAct_apply A b p k)

/-- `tanh (relu (A + b) · W_f + b_f)` by the host's operations is `head`. -/
theorem ref2_eq (A : FVec Ideal S100000x16 .f32) (b : FVec Ideal S16 .f32) (W : FVec Ideal S16x1 .f32) (c : FVec Ideal S1 .f32) :
    ref2 (F := Ideal) A b W c = head A (vec b) W (c (ix1 0)) := by
  funext i
  obtain ⟨p, q, rfl⟩ : ∃ (p : Fin 100000) (q : Fin 1), i = ix2 p q := ⟨i 0, i 1, eq_ix2 i⟩
  unfold ref2
  show Ideal.tanh (Host.dotGeneral (F := Ideal) dot_S100000x16_S16x1_S100000x1_1_0_0_1_n_n none (refAct (F := Ideal) A b) W (ix2 p q)
      + broadcastInDim S100000x1 ![0, 1] bcast_S1x1_S100000x1_0_1 (broadcastInDim S1x1 ![1] bcast_S1_S1x1_1 c) (ix2 p q))
    = Ideal.tanh (_ + c (ix1 0))
  rw [broadcastInDim_apply _ bcast_S1x1_S100000x1_0_1 _ (ix2 p q) (ix2 0 0) (fun a => by
      match a with
      | ⟨0, _⟩ => rfl
      | ⟨1, _⟩ => rfl),
    broadcastInDim_apply _ bcast_S1_S1x1_1 c (ix2 0 0) (ix1 0) (fun a => by
      match a with
      | ⟨0, _⟩ => rfl)]
  refine congrArg (fun s => Ideal.tanh (s + c (ix1 0))) ?_
  refine (dotGeneral_apply _ plainR2 none _ W p q).trans ?_
  exact Finset.sum_congr rfl fun k _ => congrArg (· * W (ix2 k q)) (refAct_apply A b p k)

/-- The reference's result, as it spells it, is `net`. -/
theorem refNet_eq (x : FVec Ideal S100000x1 .f32) (e : IVec S2x3200000 32) (W1 : FVec Ideal S1x16 .f32) (b1 : FVec Ideal S16 .f32)
    (W2 : FVec Ideal S16x16 .f32) (b2 : FVec Ideal S16 .f32) (Wf : FVec Ideal S16x1 .f32) (bf : FVec Ideal S1 .f32) :
    refNet (F := Ideal) x e W1 b1 W2 b2 Wf bf = net x e W1 b1 W2 b2 Wf bf := by
  unfold refNet net
  rw [ref0_eq, ref1_eq, ref2_eq]

end Cert.Gcn

end
-- ==== Proof.lean ====
/-
  A two-layer graph convolution with a tanh head, tiled, against its plain reference: equal results at the
  extended reals.

  Both programs compute, for a node-feature column `x`, an edge list `e` and weights `W₁ b₁ W₂ b₂ W_f b_f`,

      y = tanh (relu (P (relu (P (x · W₁) + b₁) · W₂) + b₂) · W_f + b_f),

  where `P` gathers a feature array at every edge's source, scales it by the edge's degree-normalised weight
  and sums it at the edge's destination. The graph data and `P` are the same host operations in both
  programs. They differ in the three dense stages: the reference applies the host's `dot_general` to the
  whole 100000-row array, the other program runs a tiled unit over ten blocks of 10000 rows, each tile a
  matrix product into a zero accumulator. At the extended reals a matrix product is the sum over the inner
  index whichever way it is tiled, each dense stage computes a row from the same row of its operand, and the
  ten blocks tile the rows: so each region leaves the dense stage of the whole array (Tile0 / Tile1 / Tile2),
  the buffer contents walk from boundary to boundary to `net` of the arguments (KernelValue), the
  reference's straight line of operations composes to the same `net` (RefRun, RefLayers), and the two
  results are equal entry by entry. No step uses that an input is finite: only sums and products are
  regrouped by the shape of the index, never distributed.

  The three frame claims: the two tiled programs' runs are the generated frames; the reference's is its run
  with the result dropped. The idealization rewrote nothing, so its claim is `True`.
-/
import proofs.«170745_j6098853560889_1_alg».proof.Defs
import proofs.«170745_j6098853560889_1_alg».proof.Proof.Gen.Kernel
import proofs.«170745_j6098853560889_1_alg».proof.Proof.Gen.Kernel.Frame
import proofs.«170745_j6098853560889_1_alg».proof.Proof.Gen.KernelIdeal
import proofs.«170745_j6098853560889_1_alg».proof.Proof.Gen.KernelIdeal.Frame
import proofs.«170745_j6098853560889_1_alg».proof.Proof.Gen.ReferenceIdeal
import proofs.«170745_j6098853560889_1_alg».proof.Proof.Gen.Pre_finite_inputs
import proofs.«170745_j6098853560889_1_alg».proof.Proof.KernelRun
import proofs.«170745_j6098853560889_1_alg».proof.Proof.KernelValue
import proofs.«170745_j6098853560889_1_alg».proof.Proof.RefRun
import proofs.«170745_j6098853560889_1_alg».proof.Proof.RefLayers
import Idealize.ShloMosaic.Adequacy
import Idealize.ShloMosaic.Init

noncomputable section

namespace Cert.Proof

open Idealize.ShloMosaic Idealize.ShloMosaic.TcCoe Idealize.SL.Sem

/-- The tiled program, at the word level, runs and keeps its arguments. -/
theorem frame_kernel : Cert.frame_Kernel := fun m ρ _ => Cert.Kernel.Gen.frame m ρ

/-- The tiled program, idealized, runs and keeps its arguments. -/
theorem frame_kernelIdeal : Cert.frame_KernelIdeal := fun m ρ _ => Cert.KernelIdeal.Gen.frame m ρ

/-- The reference runs and keeps its arguments: its run read back, the result dropped. -/
theorem frame_reference : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- From memories agreeing on the arguments both idealized programs end with the result array at `net` of the
    arguments: the tiled one by the walk through its boundaries, the reference by its run read back. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Walk.value m ρ c), (h c).2⟩)
      (Cert.KernelIdeal.Named.run (F := Ideal) m ρ)
  · refine (θ_run Cert.ReferenceIdeal.defs _ _).mono (fun _ h c => ⟨?_, (h c).2⟩)
      (Cert.ReferenceIdeal.HandRun.run (F := Ideal) m' ρ')
    obtain ⟨h0, h1, h2, h3, h4, h5, h6, h7⟩ := hagree c
    rw [(h c).1, Cert.Gcn.refNet_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
